-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S16x512x3 : Shape := ⟨3, ![16, 512, 3]⟩
abbrev S16x512 : Shape := ⟨2, ![16, 512]⟩
abbrev S16x4096 : Shape := ⟨2, ![16, 4096]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel
  bcast_S_S16x512x3 : S_.BroadcastsInDim S16x512x3 (![] : Fin 0 → Fin S16x512x3.rank)
  reducesTo_S16x512x3_S_d0_1_2 : S16x512x3.ReducesTo [0, 1, 2] S_
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S16x4096x3 .f32) (main_arg1 : FVec F S16x512x3 .f32) (main_arg2 : FVec F S16x512 .f32) (main_arg3 : IVec S16x4096 32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x512x3 .f32 := Host.absf main_arg1
  let main_cst_0 : FVec F S_ .f32 := constant S_ .f32 0x7F800000#32
  let main_v5 : FVec F S16x512x3 .f32 := broadcastInDim S16x512x3 ![] bcast_S_S16x512x3 main_cst_0
  let main_v6 : IVec S16x512x3 1 := cmpf .olt main_v4 main_v5
  let main_c_1 : IVec S_ 1 := constantI S_ 1 1#1
  let main_v7 : IVec S_ 1 := (fun x v => Host.reduce IntOp.andi x v reducesTo_S16x512x3_S_d0_1_2 h_S_) main_v6 main_c_1
  let main_v8 : IVec S_ 1 := andi main_v3 main_v7
  let main_v9 : FVec F S16x512 .f32 := Host.absf main_arg2
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  main_v13
-- ==== Kernel.lean ====
abbrev S16x4096x3 : Shape := ⟨3, ![16, 4096, 3]⟩
abbrev S16x512x3 : Shape := ⟨3, ![16, 512, 3]⟩
abbrev S16x512 : Shape := ⟨2, ![16, 512]⟩
abbrev S16x4096 : Shape := ⟨2, ![16, 4096]⟩
abbrev S16x3x512 : Shape := ⟨3, ![16, 3, 512]⟩
abbrev S16x1x512 : Shape := ⟨3, ![16, 1, 512]⟩
abbrev S16x4096x1 : Shape := ⟨3, ![16, 4096, 1]⟩
abbrev S16x1x128 : Shape := ⟨3, ![16, 1, 128]⟩
abbrev S1x4096x3 : Shape := ⟨3, ![1, 4096, 3]⟩
abbrev S1x3x512 : Shape := ⟨3, ![1, 3, 512]⟩
abbrev S1x1x512 : Shape := ⟨3, ![1, 1, 512]⟩
abbrev S1x4096x1 : Shape := ⟨3, ![1, 4096, 1]⟩
abbrev S1x1x128 : Shape := ⟨3, ![1, 1, 128]⟩
abbrev S4096x3 : Shape := ⟨2, ![4096, 3]⟩
abbrev S3x512 : Shape := ⟨2, ![3, 512]⟩
abbrev S1x512 : Shape := ⟨2, ![1, 512]⟩
abbrev S4096x1 : Shape := ⟨2, ![4096, 1]⟩
abbrev S4096 : Shape := ⟨1, ![4096]⟩
abbrev S512 : Shape := ⟨1, ![512]⟩
abbrev S4096x512 : Shape := ⟨2, ![4096, 512]⟩
abbrev S1 : Shape := ⟨1, ![1]⟩
abbrev S1x1x1 : Shape := ⟨3, ![1, 1, 1]⟩
abbrev S1x128 : Shape := ⟨2, ![1, 128]⟩
abbrev S16x1x1 : Shape := ⟨3, ![16, 1, 1]⟩
abbrev S16 : Shape := ⟨1, ![16]⟩
abbrev S_ : Shape := ⟨0, ![]⟩

abbrev nBuf : Space → Nat
  | .hbm => 31
  | .vmem => 10
  | .smem => 0
  | _ => 0

abbrev bufTy : (tb : Table) → Fin (tcTables nBuf tb) → BufTy
  | .hbm, ⟨0, _⟩ => ⟨S16x4096x3, .f32⟩
  | .hbm, ⟨1, _⟩ => ⟨S16x512x3, .f32⟩
  | .hbm, ⟨2, _⟩ => ⟨S16x512, .f32⟩
  | .hbm, ⟨3, _⟩ => ⟨S16x4096, .i32⟩
  | .hbm, ⟨4, _⟩ => ⟨S16x3x512, .f32⟩
  | .hbm, ⟨5, _⟩ => ⟨S16x1x512, .f32⟩
  | .hbm, ⟨6, _⟩ => ⟨S16x4096x1, .i32⟩
  | .hbm, ⟨7, _⟩ => ⟨S16x1x128, .f32⟩
  | .hbm, ⟨8, _⟩ => ⟨S16x1x1, .f32⟩
  | .hbm, ⟨9, _⟩ => ⟨S16, .f32⟩
  | .hbm, ⟨10, _⟩ => ⟨S_, .f32⟩
  | .hbm, ⟨11, _⟩ => ⟨S_, .f32⟩
  | .hbm, ⟨12, _⟩ => ⟨S16x1x1, .f32⟩
  | .hbm, ⟨13, _⟩ => ⟨S16, .f32⟩
  | .hbm, ⟨14, _⟩ => ⟨S_, .f32⟩
  | .hbm, ⟨15, _⟩ => ⟨S_, .f32⟩
  | .hbm, ⟨16, _⟩ => ⟨S16x1x1, .f32⟩
  | .hbm, ⟨17, _⟩ => ⟨S16, .f32⟩
  | .hbm, ⟨18, _⟩ => ⟨S_, .f32⟩
  | .hbm, ⟨19, _⟩ => ⟨S_, .f32⟩
  | .hbm, ⟨20, _⟩ => ⟨S16x1x1, .f32⟩
  | .hbm, ⟨21, _⟩ => ⟨S16, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x3x512, .f32⟩
  | .local _ .vmem, ⟨3, _⟩ => ⟨S1x3x512, .f32⟩
  | .local _ .vmem, ⟨4, _⟩ => ⟨S1x1x512, .f32⟩
  | .local _ .vmem, ⟨5, _⟩ => ⟨S1x1x512, .f32⟩
  | .local _ .vmem, ⟨6, _⟩ => ⟨S1x4096x1, .i32⟩
  | .local _ .vmem, ⟨7, _⟩ => ⟨S1x4096x1, .i32⟩
  | .local _ .vmem, ⟨8, _⟩ => ⟨S1x1x128, .f32⟩
  | .local _ .vmem, ⟨9, _⟩ => ⟨S1x1x128, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S16x512x3_S16x3x512_0_2_1 : S16x512x3.Transposes [0, 2, 1] S16x3x512
  shapeCasts_S16x512_S16x1x512 : S16x512.ShapeCasts S16x1x512
  shapeCasts_S16x4096_S16x4096x1 : S16x4096.ShapeCasts S16x4096x1
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  reduces_S4096x3_S4096 : S4096x3.Reduces [1] S4096
  shapeCasts_S4096_S4096x1 : S4096.ShapeCasts S4096x1
  reduces_S3x512_S512 : S3x512.Reduces [0] S512
  shapeCasts_S512_S1x512 : S512.ShapeCasts S1x512
  broadcasts_S4096x1_S4096x512 : S4096x1.Broadcasts S4096x512
  broadcasts_S1x512_S4096x512 : S1x512.Broadcasts S4096x512
  reduces_S4096x512_S4096 : S4096x512.Reduces [1] S4096
  reduces_S4096x512_S512 : S4096x512.Reduces [0] S512
  shapeCasts_S4096x1_S1x4096x1 : S4096x1.ShapeCasts S1x4096x1
  reduces_S1x4096x1_S1 : S1x4096x1.Reduces [1, 2] S1
  shapeCasts_S1_S1x1x1 : S1.ShapeCasts S1x1x1
  inpos_S1x1x1_p0_0_0 : ∀ a, (![0, 0, 0] : Fin 3 → Nat) a < S1x1x1.size a
  shapeCasts_S1x512_S1x1x512 : S1x512.ShapeCasts S1x1x512
  reduces_S1x1x512_S1 : S1x1x512.Reduces [1, 2] S1
  iota_S1x128_d1_w32 : S1x128.Iotas .tc 32 [1]
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S16x1x128_S16x1x1_0_0_0 : S16x1x128.Slices ![0, 0, 0] S16x1x1
  shapeCasts_S16x1x1_S16 : S16x1x1.ShapeCasts S16
  reducesTo_S16_S_d0 : S16.ReducesTo [0] S_
  h_S_ : 0 < S_.numel
  slices_S16x1x128_S16x1x1_0_0_1 : S16x1x128.Slices ![0, 0, 1] S16x1x1
  slices_S16x1x128_S16x1x1_0_0_2 : S16x1x128.Slices ![0, 0, 2] S16x1x1
  slices_S16x1x128_S16x1x1_0_0_3 : S16x1x128.Slices ![0, 0, 3] S16x1x1
  dot_S4096x3_S3x512_S4096x512_1_0_0_1_n_n_wf : DotDims.WF S4096x3 S3x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S16x4096x3.size a
  hwx0_0 : ∀ i : grid0.Coords, EltTy.bits .f32 = 32 ∨ (Rect.block (s := S16x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512.size a ≤ S16x3x512.size a
  hwx0_1 : ∀ i : grid0.Coords, EltTy.bits .f32 = 32 ∨ (Rect.block (s := S16x3x512) S1x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S16x1x512.size a
  hwx0_2 : ∀ i : grid0.Coords, EltTy.bits .f32 = 32 ∨ (Rect.block (s := S16x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x1.size a ≤ S16x4096x1.size a
  hwx0_3 : ∀ i : grid0.Coords, EltTy.bits .i32 = 32 ∨ (Rect.block (s := S16x4096x1) S1x4096x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S16x1x128.size a
  hwx0_4 : ∀ i : grid0.Coords, EltTy.bits .f32 = 32 ∨ (Rect.block (s := S16x1x128) S1x1x128.size (cc0_transform_4 i) (hinb0_4 i)).WholeWords (EltTy.packing .f32)

variable [Facts₀]

def dot_S4096x3_S3x512_S4096x512_1_0_0_1_n_n : DotDims S4096x3 S3x512 S4096x512 where
  lhsContracting := [1]
  rhsContracting := [0]
  lhsNonContracting := [0]
  rhsNonContracting := [1]
  lhsBatch := []
  rhsBatch := []
  wf := dot_S4096x3_S3x512_S4096x512_1_0_0_1_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x3 : Shape := ⟨3, ![16, 4096, 3]⟩
abbrev S16x512x3 : Shape := ⟨3, ![16, 512, 3]⟩
abbrev S16x512 : Shape := ⟨2, ![16, 512]⟩
abbrev S16x4096 : Shape := ⟨2, ![16, 4096]⟩
abbrev S16x4096x1x3 : Shape := ⟨4, ![16, 4096, 1, 3]⟩
abbrev S16x1x512x3 : Shape := ⟨4, ![16, 1, 512, 3]⟩
abbrev S16x4096x512x3 : Shape := ⟨4, ![16, 4096, 512, 3]⟩
abbrev S_ : Shape := ⟨0, ![]⟩
abbrev S16x4096x512 : Shape := ⟨3, ![16, 4096, 512]⟩

abbrev nBuf : Space → Nat
  | .hbm => 34
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x512x3, .f32⟩
  | .hbm, ⟨2, _⟩ => ⟨S16x512, .f32⟩
  | .hbm, ⟨3, _⟩ => ⟨S16x4096, .i32⟩
  | .hbm, ⟨4, _⟩ => ⟨S16x4096x1x3, .f32⟩
  | .hbm, ⟨5, _⟩ => ⟨S16x1x512x3, .f32⟩
  | .hbm, ⟨6, _⟩ => ⟨S16x4096x512x3, .f32⟩
  | .hbm, ⟨7, _⟩ => ⟨S16x4096x512x3, .f32⟩
  | .hbm, ⟨8, _⟩ => ⟨S16x4096x512x3, .f32⟩
  | .hbm, ⟨9, _⟩ => ⟨S16x4096x512x3, .f32⟩
  | .hbm, ⟨10, _⟩ => ⟨S_, .f32⟩
  | .hbm, ⟨11, _⟩ => ⟨S16x4096x512, .f32⟩
  | .hbm, ⟨12, _⟩ => ⟨S_, .f32⟩
  | .hbm, ⟨13, _⟩ => ⟨S16x4096, .f32⟩
  | .hbm, ⟨14, _⟩ => ⟨S_, .f32⟩
  | .hbm, ⟨15, _⟩ => ⟨S16x512, .f32⟩
  | .hbm, ⟨16, _⟩ => ⟨S16x4096, .f32⟩
  | .hbm, ⟨17, _⟩ => ⟨S16x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16x512, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S16x4096x3_S16x4096x1x3_0_1_3 : S16x4096x3.BroadcastsInDim S16x4096x1x3 (![0, 1, 3] : Fin 3 → Fin S16x4096x1x3.rank)
  bcast_S16x512x3_S16x1x512x3_0_2_3 : S16x512x3.BroadcastsInDim S16x1x512x3 (![0, 2, 3] : Fin 3 → Fin S16x1x512x3.rank)
  bcast_S16x4096x1x3_S16x4096x512x3_0_1_2_3 : S16x4096x1x3.BroadcastsInDim S16x4096x512x3 (![0, 1, 2, 3] : Fin 4 → Fin S16x4096x512x3.rank)
  bcast_S16x1x512x3_S16x4096x512x3_0_1_2_3 : S16x1x512x3.BroadcastsInDim S16x4096x512x3 (![0, 1, 2, 3] : Fin 4 → Fin S16x4096x512x3.rank)
  reducesTo_S16x4096x512x3_S16x4096x512_d3 : S16x4096x512x3.ReducesTo [3] S16x4096x512
  h_S_ : 0 < S_.numel
  reducesTo_S16x4096x512_S16x4096_d2 : S16x4096x512.ReducesTo [2] S16x4096
  reducesTo_S16x4096x512_S16x512_d1 : S16x4096x512.ReducesTo [1] S16x512
  reducesTo_S16x4096_S_d0_1 : S16x4096.ReducesTo [0, 1] S_
  reducesTo_S16x512_S_d0_1 : S16x512.ReducesTo [0, 1] S_

variable [Facts₀]

class Facts : Prop extends Facts₀ where

variable [Facts]
-- ==== Proof.Spec.lean ====
/-
  The quantity both programs compute, as one closed formula over the extended reals.

  For a batch `b`, points `p_n ∈ ℝ³` (`n < 4096`) and centres `c_m ∈ ℝ³` (`m < 512`):
    sqd b n m  = Σ_k (p_{n,k} - c_{m,k})²                 the squared distance,
    near1 b n  = min_m sqd b n m,   near2 b m = min_n sqd b n m   (folds of `min` from +∞),
    num1 b = Σ_n near1 b n · o_n,   den1 b = Σ_n o_n              (o the integer weights, read exactly),
    num2 b = Σ_m near2 b m · w_m,   den2 b = Σ_m w_m              (w the mask),
  and the loss is  (Σ_b num1 b) / (Σ_b den1 b + ε)  +  (Σ_b num2 b) / (Σ_b den2 b + ε).
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The four argument arrays' shapes. -/
abbrev SP : Shape := ⟨3, ![16, 4096, 3]⟩
abbrev SC : Shape := ⟨3, ![16, 512, 3]⟩
abbrev SW : Shape := ⟨2, ![16, 512]⟩
abbrev SO : Shape := ⟨2, ![16, 4096]⟩

/-- The minima start from the f32 word of +∞, read as an extended real. -/
def inf : EReal := Ideal.ofBits .f32 0x7F800000#32

/-- The small constant added to each denominator, as the extended real its f32 word denotes. -/
def eps : EReal := Ideal.ofBits .f32 0x358637BD#32

/-- The integer weight of point `n` of batch `b`, read exactly. -/
def wt (O : SO.Idx → BitVec 32) (b : Fin 16) (n : Fin 4096) : EReal := (((O (ix2 b n)).toInt : ℝ) : EReal)

/-- Squared distance between point `n` and centre `m` of batch `b`. -/
def sqd (P : SP.Idx → EReal) (C : SC.Idx → EReal) (b : Fin 16) (n : Fin 4096) (m : Fin 512) : EReal :=
  ∑ k : Fin 3, (P (ix3 b n k) - C (ix3 b m k)) * (P (ix3 b n k) - C (ix3 b m k))

/-- Distance from point `n` to its nearest centre. -/
def near1 (P : SP.Idx → EReal) (C : SC.Idx → EReal) (b : Fin 16) (n : Fin 4096) : EReal :=
  (Finset.univ : Finset (Fin 512)).fold min inf (fun m => sqd P C b n m)

/-- Distance from centre `m` to its nearest point. -/
def near2 (P : SP.Idx → EReal) (C : SC.Idx → EReal) (b : Fin 16) (m : Fin 512) : EReal :=
  (Finset.univ : Finset (Fin 4096)).fold min inf (fun n => sqd P C b n m)

def num1 (P : SP.Idx → EReal) (C : SC.Idx → EReal) (O : SO.Idx → BitVec 32) (b : Fin 16) : EReal :=
  ∑ n : Fin 4096, near1 P C b n * wt O b n

def den1 (O : SO.Idx → BitVec 32) (b : Fin 16) : EReal := ∑ n : Fin 4096, wt O b n

def num2 (P : SP.Idx → EReal) (C : SC.Idx → EReal) (W : SW.Idx → EReal) (b : Fin 16) : EReal :=
  ∑ m : Fin 512, near2 P C b m * W (ix2 b m)

def den2 (W : SW.Idx → EReal) (b : Fin 16) : EReal := ∑ m : Fin 512, W (ix2 b m)

/-- The loss from the four batch-summed quantities. -/
def combine (n1 d1 n2 d2 : EReal) : EReal := Ideal.div n1 (d1 + eps) + Ideal.div n2 (d2 + eps)

/-- The loss as one formula of the four argument arrays. -/
def loss (P : SP.Idx → EReal) (C : SC.Idx → EReal) (W : SW.Idx → EReal) (O : SO.Idx → BitVec 32) : EReal :=
  combine (∑ b : Fin 16, num1 P C O b) (∑ b : Fin 16, den1 O b) (∑ b : Fin 16, num2 P C W b) (∑ b : Fin 16, den2 W b)

end Cert.Chamfer

end
-- ==== Proof.Finite.lean ====
/-
  Finiteness from the precondition: every entry of the two coordinate arrays (and of the mask) is a real number.

  The precondition is the conjunction of three tests "all |x| < +∞", one per float argument.  Each test is a reduction
  by `and` of the comparison words `|x_i| < +∞` from the word 1, and the conjunction is 1; so every comparison word
  is 1, i.e. max x_i (-x_i) < ⊤ in the extended reals, which excludes x_i = ⊤ and x_i = ⊥.
-/
import proofs.«128054_j9740985827850_2_alg».proof.Defs
import proofs.«128054_j9740985827850_2_alg».proof.Proof.Gen.Pre_finite_inputs
import Idealize.ShloMosaic.Lib.ReduceAll
import Idealize.ShloMosaic.Lib.ValueIdx
import Idealize.ShloMosaic.PureOps.Ideal.Laws
import proofs.«128054_j9740985827850_2_alg».proof.Proof.Spec

noncomputable section

namespace Cert.Chamfer.Finite

open Idealize.ShloMosaic Idealize.SL.Sem

/-- The f32 word `0x7F800000` denotes `+∞`. -/
theorem ofBits_inf : Ideal.ofBits .f32 0x7F800000#32 = (⊤ : EReal) := by simp [Ideal.ofBits, Ideal.ieee]

/-- An extended real whose absolute value `max x (-x)` is strictly below `+∞` is a real number:
    at `⊤` the maximum is `⊤`, at `⊥` it is `-⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The comparison word `|x| < +∞` being 1 says `x` is real. -/
theorem real_of_cmp (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [ofBits_inf] at h'
  refine real_of_abs_lt_top x ?_
  by_contra hn
  simp [Ideal.cmp, hn] at h'

/-- The rank-0 shape has one index. -/
instance : Subsingleton Cert.Pre_finite_inputs.S_.Idx := ⟨fun a b => funext fun d => d.elim0⟩

variable [Cert.Pre_finite_inputs.Facts]

/-- THE PRECONDITION DECODED: where `finite_inputs` is 1, every entry of each float argument is a real number. -/
theorem real_of_pre (a0 : FVec Ideal Cert.Pre_finite_inputs.S16x4096x3 .f32) (a1 : FVec Ideal Cert.Pre_finite_inputs.S16x512x3 .f32)
    (a2 : FVec Ideal Cert.Pre_finite_inputs.S16x512 .f32) (a3 : IVec Cert.Pre_finite_inputs.S16x4096 32)
    (h : Cert.Pre_finite_inputs.fn (F := Ideal) a0 a1 a2 a3 = (fun _ => 1#1)) :
    (∀ i, ∃ r : ℝ, a0 i = (r : EReal)) ∧ (∀ i, ∃ r : ℝ, a1 i = (r : EReal)) ∧ (∀ i, ∃ r : ℝ, a2 i = (r : EReal)) := by
  have e := congrFun h ValueIdx.ix0
  dsimp only [Cert.Pre_finite_inputs.fn] at e
  obtain ⟨e01, e2⟩ := IntOp.andi_eq_one.1 e
  obtain ⟨e0, e1⟩ := IntOp.andi_eq_one.1 e01
  refine ⟨fun i => ?_, fun i => ?_, fun i => ?_⟩
  · exact real_of_cmp _ (Host.reduce_andi_all _ _ _ _ _ e0 i)
  · exact real_of_cmp _ (Host.reduce_andi_all _ _ _ _ _ e1 i)
  · exact real_of_cmp _ (Host.reduce_andi_all _ _ _ _ _ e2 i)

/-- The same at the idealized kernel's argument arrays: under its precondition, on every device the contents of the
    point array, of the centre array and of the mask are real at every index. -/
theorem real_of_pre_kernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) :=
  real_of_pre _ _ _ _ (h c)

/-- The witnesses chosen: real arrays `P`, `C` whose coercions are the two coordinate arrays. -/
theorem exists_real_arrays
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ (P : Cert.Chamfer.SP.Idx → ℝ) (C : Cert.Chamfer.SC.Idx → ℝ),
      m ((c.tc : Thread Cert.KernelIdeal.nD Cert.KernelIdeal.τ).loc Cert.KernelIdeal.main_arg0) = (fun i => ((P i : ℝ) : EReal))
      ∧ m ((c.tc : Thread Cert.KernelIdeal.nD Cert.KernelIdeal.τ).loc Cert.KernelIdeal.main_arg1) = (fun i => ((C i : ℝ) : EReal)) := by
  obtain ⟨h0, h1, -⟩ := real_of_pre_kernelIdeal m h c
  choose P hP using h0
  choose C hC using h1
  exact ⟨P, C, funext hP, funext hC⟩

end Cert.Chamfer.Finite

end
-- ==== Proof.RefLoss.lean ====
/-
  The reference program computes the specification's loss.

  Read one operation at a time, the reference forms, for batch b, point n, centre m:
    the difference of the point's and the centre's k-th coordinates, squared, summed over k = 0, 1, 2 from 0
      — the squared distance sqd b n m;
    the minimum over m from +∞ — near1 b n — and the minimum over n from +∞ — near2 b m
      (a one-axis reduction by a commutative, associative operation is the fold over that axis's coordinates);
    the total sums over (b, n) of near1 · weight and of the weight, and over (b, m) of near2 · mask and of the mask
      (a sum over a rank-2 index set is the double sum over its coordinates);
    and the two quotients, each denominator increased by ε, added.
  Each stage is one lemma; the last assembles them into the loss.
-/
import proofs.«128054_j9740985827850_2_alg».proof.Proof.Gen.ReferenceIdeal.Read
import proofs.«128054_j9740985827850_2_alg».proof.Proof.Spec
import Idealize.ShloMosaic.Lib.ValueIdx
import Idealize.ShloMosaic.PureOps.Ideal.Laws
import Idealize.ShloMosaic.PureOps.Reduce

noncomputable section

namespace Cert.Chamfer.Ref

open Idealize.ShloMosaic Idealize.ShloMosaic.ValueIdx Cert.ReferenceIdeal Cert.ReferenceIdeal.Gen Cert.ReferenceIdeal.Read

variable [Cert.ReferenceIdeal.Facts]

/-- The point array read through the two broadcasts and the sum's index: element (b, n, k). -/
theorem idx_p (b : Fin 16) (n : Fin 4096) (m : Fin 512) (k : Fin 3) :
    idx_main_v0 (idx_main_v2 (idx_main_v6 (ix3 b n m) k)) = ix3 b n k :=
  funext fun a => Fin.ext (by match a with | ⟨0, _⟩ => rfl | ⟨1, _⟩ => rfl | ⟨2, _⟩ => rfl)

/-- The centre array read through the two broadcasts and the sum's index: element (b, m, k). -/
theorem idx_c (b : Fin 16) (n : Fin 4096) (m : Fin 512) (k : Fin 3) :
    idx_main_v1 (idx_main_v3 (idx_main_v6 (ix3 b n m) k)) = ix3 b m k :=
  funext fun a => Fin.ext (by match a with | ⟨0, _⟩ => rfl | ⟨1, _⟩ => rfl | ⟨2, _⟩ => rfl)

/-- Stage 1: the sum over the three coordinates of the squared differences is the squared distance. -/
theorem v6_eq (x0 : SP.Idx → EReal) (x1 : SC.Idx → EReal) (b : Fin 16) (n : Fin 4096) (m : Fin 512) :
    val_main_v6 (F := Ideal) x0 x1 (ix3 b n m) = sqd x0 x1 b n m := by
  rw [val_main_v6_apply, val_main_cst_apply, Ideal.ofBits_def, Ideal.ofBits_zero_f32, zero_add]
  unfold sqd
  refine Finset.sum_congr rfl fun k _ => ?_
  rw [val_main_v5_apply, val_main_v4_apply, val_main_v2_apply, val_main_v3_apply, val_main_v0_apply,
    val_main_v1_apply, idx_p, idx_c, Ideal.mulf_def, Ideal.subf_def]

/-- Dropping the centre axis (axis 2) of the distance array's shape leaves the (batch, point) shape. -/
theorem red2 : S16x4096x512.Reduces [2] S16x4096 := by decide

/-- Dropping the point axis (axis 1) of the distance array's shape leaves the (batch, centre) shape. -/
theorem red1 : S16x4096x512.Reduces [1] S16x512 := by decide

/-- Inserting the centre coordinate m into (b, n) on axis 2 gives (b, n, m). -/
theorem lift2 (b : Fin 16) (n : Fin 4096) (m : Fin 512) : red2.lift (ix2 b n) m = ix3 b n m :=
  funext fun a => Fin.ext (by match a with | ⟨0, _⟩ => rfl | ⟨1, _⟩ => rfl | ⟨2, _⟩ => rfl)

/-- Inserting the point coordinate n into (b, m) on axis 1 gives (b, n, m). -/
theorem lift1 (b : Fin 16) (m : Fin 512) (n : Fin 4096) : red1.lift (ix2 b m) n = ix3 b n m :=
  funext fun a => Fin.ext (by match a with | ⟨0, _⟩ => rfl | ⟨1, _⟩ => rfl | ⟨2, _⟩ => rfl)

/-- For any array y over (batch, point, centre): its minimum-reduction over the centre axis from +∞ is, at (b, n),
    the fold of min from +∞ over the centres m of y (b, n, m). -/
theorem min_over_centres (y : S16x4096x512.Idx → EReal) (b : Fin 16) (n : Fin 4096) :
    Host.reduce (FloatOps.minimumf (F := Ideal) (φ := .f32)) y (val_main_cst_0 (F := Ideal))
        reducesTo_S16x4096x512_S16x4096_d2 h_S_ (ix2 b n)
      = (Finset.univ : Finset (Fin 512)).fold min inf (fun m => y (ix3 b n m)) := by
  refine (Host.reduce_eq_fold_single (FloatOps.minimumf (F := Ideal) (φ := .f32)) y (val_main_cst_0 (F := Ideal))
    reducesTo_S16x4096x512_S16x4096_d2 red2 h_S_ (ix2 b n)).trans ?_
  show (Finset.univ : Finset (Fin 512)).fold min inf (fun m => y (red2.lift (ix2 b n) m)) = _
  exact Finset.fold_congr fun m _ => congrArg y (lift2 b n m)

/-- For any array y over (batch, point, centre): its minimum-reduction over the point axis from +∞ is, at (b, m),
    the fold of min from +∞ over the points n of y (b, n, m). -/
theorem min_over_points (y : S16x4096x512.Idx → EReal) (b : Fin 16) (m : Fin 512) :
    Host.reduce (FloatOps.minimumf (F := Ideal) (φ := .f32)) y (val_main_cst_1 (F := Ideal))
        reducesTo_S16x4096x512_S16x512_d1 h_S_ (ix2 b m)
      = (Finset.univ : Finset (Fin 4096)).fold min inf (fun n => y (ix3 b n m)) := by
  refine (Host.reduce_eq_fold_single (FloatOps.minimumf (F := Ideal) (φ := .f32)) y (val_main_cst_1 (F := Ideal))
    reducesTo_S16x4096x512_S16x512_d1 red1 h_S_ (ix2 b m)).trans ?_
  show (Finset.univ : Finset (Fin 4096)).fold min inf (fun n => y (red1.lift (ix2 b m) n)) = _
  exact Finset.fold_congr fun n _ => congrArg y (lift1 b m n)

/-- Stage 2a: the minimum over the centres, folded from +∞, is the distance to the nearest centre. -/
theorem v7_eq (x0 : SP.Idx → EReal) (x1 : SC.Idx → EReal) (b : Fin 16) (n : Fin 4096) :
    val_main_v7 (F := Ideal) x0 x1 (ix2 b n) = near1 x0 x1 b n := by
  unfold val_main_v7 near1
  generalize hy : val_main_v6 (F := Ideal) x0 x1 = y
  rw [min_over_centres]
  exact Finset.fold_congr fun m _ => by rw [← hy, v6_eq]

/-- Stage 2b: the minimum over the points, folded from +∞, is the distance to the nearest point. -/
theorem v8_eq (x0 : SP.Idx → EReal) (x1 : SC.Idx → EReal) (b : Fin 16) (m : Fin 512) :
    val_main_v8 (F := Ideal) x0 x1 (ix2 b m) = near2 x0 x1 b m := by
  unfold val_main_v8 near2
  generalize hy : val_main_v6 (F := Ideal) x0 x1 = y
  rw [min_over_points]
  exact Finset.fold_congr fun n _ => by rw [← hy, v6_eq]

/-- Stage 3a: the first numerator, the sum over all batches and points of the nearest-centre distance times the
    point's integer weight. -/
theorem v11_eq (x0 : SP.Idx → EReal) (x1 : SC.Idx → EReal) (x3 : SO.Idx → BitVec 32) (i : S_.Idx) :
    val_main_v11 (F := Ideal) x0 x1 x3 i = ∑ b : Fin 16, num1 x0 x1 x3 b := by
  rw [val_main_v11_apply, val_main_cst_2_apply, Ideal.ofBits_def, Ideal.ofBits_zero_f32, zero_add, sum_idx2]
  refine Finset.sum_congr rfl fun b _ => ?_
  unfold num1
  refine Finset.sum_congr rfl fun n _ => ?_
  rw [val_main_v10_apply, v7_eq, val_main_v9_apply, Ideal.mulf_def]
  rfl

/-- Stage 3b: the first denominator before ε, the sum of the integer weights. -/
theorem v12_eq (x3 : SO.Idx → BitVec 32) (i : S_.Idx) :
    val_main_v12 (F := Ideal) x3 i = ∑ b : Fin 16, den1 x3 b := by
  rw [val_main_v12_apply, val_main_cst_3_apply, Ideal.ofBits_def, Ideal.ofBits_zero_f32, zero_add, sum_idx2]
  refine Finset.sum_congr rfl fun b _ => ?_
  unfold den1
  refine Finset.sum_congr rfl fun n _ => ?_
  rw [val_main_v9_apply]
  rfl

/-- Stage 3c: the second numerator, the sum over all batches and centres of the nearest-point distance times the mask. -/
theorem v16_eq (x0 : SP.Idx → EReal) (x1 : SC.Idx → EReal) (x2 : SW.Idx → EReal) (i : S_.Idx) :
    val_main_v16 (F := Ideal) x0 x1 x2 i = ∑ b : Fin 16, num2 x0 x1 x2 b := by
  rw [val_main_v16_apply, val_main_cst_5_apply, Ideal.ofBits_def, Ideal.ofBits_zero_f32, zero_add, sum_idx2]
  refine Finset.sum_congr rfl fun b _ => ?_
  unfold num2
  refine Finset.sum_congr rfl fun m _ => ?_
  rw [val_main_v15_apply, v8_eq, Ideal.mulf_def]

/-- Stage 3d: the second denominator before ε, the sum of the mask. -/
theorem v17_eq (x2 : SW.Idx → EReal) (i : S_.Idx) :
    val_main_v17 (F := Ideal) x2 i = ∑ b : Fin 16, den2 x2 b := by
  rw [val_main_v17_apply, val_main_cst_6_apply, Ideal.ofBits_def, Ideal.ofBits_zero_f32, zero_add, sum_idx2]
  rfl

/-- THE REFERENCE COMPUTES THE SPECIFICATION: its one result element is the loss of the four argument arrays. -/
theorem ref_loss (x0 : SP.Idx → EReal) (x1 : SC.Idx → EReal) (x2 : SW.Idx → EReal) (x3 : SO.Idx → BitVec 32) :
    val_main_v20 (F := Ideal) x0 x1 x2 x3 = fun _ => loss x0 x1 x2 x3 := by
  funext i
  rw [val_main_v20_apply, val_main_v14_apply, val_main_v19_apply, val_main_v13_apply, val_main_v18_apply,
    v11_eq, v12_eq, v16_eq, v17_eq, val_main_cst_4_apply, val_main_cst_7_apply]
  rfl

end Cert.Chamfer.Ref

end
-- ==== Proof.Tail.lean ====
/-
  What the program does with the kernel's output array `A : [16, 1, 128]` after the kernel: lanes 0..3 of
  each batch's row hold that batch's four partial sums; each lane is cut out, summed over the 16 batches,
  and the two quotients (numerator over denominator plus ε) are added.
-/
import proofs.«128054_j9740985827850_2_alg».proof.KernelIdeal
import Idealize.ShloMosaic.PureOps.Ideal

noncomputable section

namespace Cert.Chamfer

open Idealize.ShloMosaic Cert.KernelIdeal Cert.KernelIdeal.Facts₀

variable [Cert.KernelIdeal.Facts]

/-- Lane `l` of every batch's row, as a vector of 16 entries. -/
def laneOf (A : FVec Ideal S16x1x128 .f32) (off : Fin 3 → Nat) (h : S16x1x128.Slices off S16x1x1) : FVec Ideal S16 .f32 :=
  shapeCast S16 (extractStridedSlice S16x1x1 off A h) shapeCasts_S16x1x1_S16

/-- The sum over the batches of one lane. -/
def laneSum (A : FVec Ideal S16x1x128 .f32) (off : Fin 3 → Nat) (h : S16x1x128.Slices off S16x1x1) : FVec Ideal S_ .f32 :=
  Host.reduceAdd (F := Ideal) (laneOf A off h) (constant (F := Ideal) S_ .f32 0x00000000#32) reducesTo_S16_S_d0 h_S_

/-- The program's result as a function of the kernel's output array. -/
def tailOf (A : FVec Ideal S16x1x128 .f32) : FVec Ideal S_ .f32 :=
  addf
    (Host.divf (F := Ideal) (laneSum A ![0, 0, 0] slices_S16x1x128_S16x1x1_0_0_0)
      (addf (laneSum A ![0, 0, 1] slices_S16x1x128_S16x1x1_0_0_1) (constant (F := Ideal) S_ .f32 0x358637BD#32)))
    (Host.divf (F := Ideal) (laneSum A ![0, 0, 2] slices_S16x1x128_S16x1x1_0_0_2)
      (addf (laneSum A ![0, 0, 3] slices_S16x1x128_S16x1x1_0_0_3) (constant (F := Ideal) S_ .f32 0x358637BD#32)))

end Cert.Chamfer

end
-- ==== Proof.KRun.lean ====
/-
  The program's result after a run, in two steps: every weakly fair execution ends with the result buffer
  holding what the operations after the kernel compute from the kernel's output array, and that array is what
  the grid's sixteen points wrote back, one row each.
-/
import proofs.«128054_j9740985827850_2_alg».proof.Proof.Gen.KernelIdeal.Frame
import Idealize.ShloMosaic.Lib.Pipeline.Value
import Idealize.ShloMosaic.Lib.StableHlo.Run
import proofs.«128054_j9740985827850_2_alg».proof.Proof.Tail

noncomputable section
namespace Cert.Chamfer.K
open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- After a run the result buffer holds the value of the operations after the kernel. -/
theorem post_v20 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v20) = Pipeline.afterTail₀ cfgs (dats m) 0 (V0 m) [hostOps1] c main_v20 :=
  (h c).2 main_v20 (Pipeline.mem_restRefs_of main_v20 (by decide) (by decide))

/-- Among the buffers those operations read, the kernel's output array is what the write-backs left. -/
theorem arr_out (c : Dev nD) : Pipeline.withArrays (cfgs 0).spec c (V0 m c) (fun w => (dats m 0 c).arrAt w (cfgs 0).N) (Proc.devRef .tc main_v3) = (dats m 0 c).arrAt 4 cfg0.N :=
  Pipeline.withArrays_arr spec0 launch0.win.arr_inj c _ _ 4

set_option maxHeartbeats 4000000 in
/-- The operations after the kernel, composed: `tailOf` of the output array. -/
theorem tail_eq (c : Dev nD) : Pipeline.afterTail₀ cfgs (dats m) 0 (V0 m) [hostOps1] c main_v20 = tailOf ((dats m 0 c).arrAt 4 cfg0.N) := by
  unfold Pipeline.afterTail₀
  show StableHlo.after hostOps1 _ (Proc.devRef .tc main_v20) = _
  after_results
  rw [arr_out m c]
  rfl

end Cert.Chamfer.K
end
-- ==== Proof.Pt.lean ====
/-
  The grid has sixteen points, one per batch: point `b` handles batch `b`.
-/
import proofs.«128054_j9740985827850_2_alg».proof.Proof.Gen.KernelIdeal.Launch

noncomputable section

namespace Cert.Chamfer.K

open Cert.KernelIdeal Cert.KernelIdeal.Gen Idealize.ShloMosaic

/-- The grid point that handles batch `k` (taken modulo 16). -/
def ptOf (k : Nat) : Fin cfg0.N := (⟨k % 16, Nat.mod_lt _ (by decide)⟩ : Fin 16).cast N_0.symm

theorem ptOf_val (k : Nat) : (ptOf k).val = k % 16 := rfl

theorem ptOf_val_of_lt {k : Nat} (h : k < 16) : (ptOf k).val = k := Nat.mod_eq_of_lt h

theorem ptOf_self (t : Fin cfg0.N) : ptOf t.val = t :=
  Fin.ext (Nat.mod_eq_of_lt (by have h : t.val < cfg0.N := t.isLt; have hN : cfg0.N = 16 := N_0; omega))

end Cert.Chamfer.K

end
-- ==== Proof.OutArray.lean ====
/-
  The kernel's output array after the run. Point `t` of the grid writes back one row, the row of batch `t`;
  the sixteen rows tile the [16, 1, 128] array, so the array ends as the rows the body left, one per point.
-/
import proofs.«128054_j9740985827850_2_alg».proof.Proof.Gen.KernelIdeal.Frame
import Idealize.ShloMosaic.Lib.Pipeline.Value
import Idealize.ShloMosaic.Lib.ValueIdx
import proofs.«128054_j9740985827850_2_alg».proof.Proof.Pt

noncomputable section
namespace Cert.Chamfer.K
open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- An index of one output block from two coordinates (the first axis has one entry). -/
def laneIdx (a l : Nat) : S1x1x128.Idx := ix3 (0 : Fin 1) (⟨a % 1, Nat.mod_lt _ (by decide)⟩ : Fin 1) (⟨l % 128, Nat.mod_lt _ (by decide)⟩ : Fin 128)

/-- What the body leaves in the output block at point `t`. -/
def blkOut (c : Dev nD) (t : Fin cfg0.N) : S1x1x128.Idx → EReal :=
  out0_4 (iblk m c 0 t) (iblk m c 1 t) (iblk m c 2 t) (iblk m c 3 t)

/-- The whole output array: row `b` is what the body leaves at the point of batch `b`. -/
def outArr (c : Dev nD) : S16x1x128.Idx → EReal := fun i => blkOut m c (ptOf (i 0).val) (laneIdx (i 1).val (i 2).val)

theorem idx4 : ∀ t : Fin cfg0.N, win0_4.index t (0 : Fin 3) = t.val ∧ win0_4.index t (1 : Fin 3) = 0 ∧ win0_4.index t (2 : Fin 3) = 0 :=
  (by decide +kernel : ∀ t : Fin grid0.N, win0_4.index t (0 : Fin 3) = t.val ∧ win0_4.index t (1 : Fin 3) = 0 ∧ win0_4.index t (2 : Fin 3) = 0)

set_option maxHeartbeats 100000 in
/-- Any family of rows, one per point: what point `t` writes back is block `t` of the array made of the rows. -/
theorem rows_read (Y : Fin cfg0.N → S1x1x128.Idx → EReal) (t : Fin cfg0.N) :
    (cfg0.win 4).cut (grid0.coords t) (Y t)
      = ((cfg0.win 4).blk t).view.read (Elt Ideal) (fun i : S16x1x128.Idx => Y (ptOf (i 0).val) (laneIdx (i 1).val (i 2).val)) := by
  obtain ⟨e0, e1, e2⟩ := idx4 t
  funext j
  show Y t j = Y (ptOf ((((cfg0.win 4).blk t).view.emb j) 0).val) (laneIdx ((((cfg0.win 4).blk t).view.emb j) 1).val ((((cfg0.win 4).blk t).view.emb j) 2).val)
  have h0 : ((((cfg0.win 4).blk t).view.emb j) 0).val = t.val := by
    show win0_4.index t (0 : Fin 3) * 1 + 1 * (j 0).val = t.val
    have hj : (j 0).val < 1 := (j 0).isLt
    omega
  have h1 : ((((cfg0.win 4).blk t).view.emb j) 1).val = (j 1).val := by
    show win0_4.index t (1 : Fin 3) * 1 + 1 * (j 1).val = (j 1).val
    omega
  have h2 : ((((cfg0.win 4).blk t).view.emb j) 2).val = (j 2).val := by
    show win0_4.index t (2 : Fin 3) * 128 + 1 * (j 2).val = (j 2).val
    omega
  rw [h0, h1, h2, ptOf_self]
  refine congrArg (Y t) ?_
  funext a; apply Fin.ext
  match a with
  | ⟨0, _⟩ => show (j 0).val = 0; have hj : (j 0).val < 1 := (j 0).isLt; omega
  | ⟨1, _⟩ => show (j 1).val = (j 1).val % 1; have hj : (j 1).val < 1 := (j 1).isLt; omega
  | ⟨2, _⟩ => show (j 2).val = (j 2).val % 128; have hj : (j 2).val < 128 := (j 2).isLt; omega

set_option maxHeartbeats 100000 in
theorem flushed_eq (c : Dev nD) (t : Fin cfg0.N) :
    (dats m 0 c).flushed 4 t = ((cfg0.win 4).blk t).view.read (Elt Ideal) (outArr m c) := by
  show (cfg0.win 4).cut (grid0.coords t) ((dats m 0 c).after 4 t) = _
  rw [after0_4]
  exact rows_read (blkOut m c) t

theorem mem_blk4 (t : Fin cfg0.N) (i : S16x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v3).slice (win0_4.rect t)).set ↔ _
  rw [View.set_slice_whole, Rect.mem_set_unit]
  exact Iff.rfl

theorem cover4 (i : S16x1x128.Idx) : ∃ t : Fin cfg0.N, (cfg0.win 4).flush t = true ∧ i ∈ ((cfg0.win 4).blk t).view.set := by
  refine ⟨ptOf (i 0).val, flush0_4 _, ?_⟩
  rw [mem_blk4]
  obtain ⟨e0, e1, e2⟩ := idx4 (ptOf (i 0).val)
  have hi0 : (i 0).val < 16 := (i 0).isLt
  have hi1 : (i 1).val < 1 := (i 1).isLt
  have hi2 : (i 2).val < 128 := (i 2).isLt
  have hp : (ptOf (i 0).val).val = (i 0).val := ptOf_val_of_lt hi0
  intro a
  match a with
  | ⟨0, _⟩ => show win0_4.index (ptOf (i 0).val) (0 : Fin 3) * 1 ≤ (i 0).val ∧ (i 0).val < win0_4.index (ptOf (i 0).val) (0 : Fin 3) * 1 + 1; omega
  | ⟨1, _⟩ => show win0_4.index (ptOf (i 0).val) (1 : Fin 3) * 1 ≤ (i 1).val ∧ (i 1).val < win0_4.index (ptOf (i 0).val) (1 : Fin 3) * 1 + 1; omega
  | ⟨2, _⟩ => show win0_4.index (ptOf (i 0).val) (2 : Fin 3) * 128 ≤ (i 2).val ∧ (i 2).val < win0_4.index (ptOf (i 0).val) (2 : Fin 3) * 128 + 128; omega

theorem final4 (c : Dev nD) : (dats m 0 c).arrAt 4 cfg0.N = outArr m c :=
  (dats m 0 c).arrAt_eq_of_cover 4 (outArr m c) (fun t _ => flushed_eq m c t) cover4

/-- Row `b`, lane `l` of the output array. -/
theorem outArr_apply (c : Dev nD) (b : Fin 16) (l : Fin 128) : outArr m c (ix3 b (0 : Fin 1) l) = blkOut m c (ptOf b.val) (ix3 (0 : Fin 1) (0 : Fin 1) l) := by
  unfold outArr
  refine congrArg (blkOut m c (ptOf b.val)) ?_
  funext a; apply Fin.ext
  match a with
  | ⟨0, _⟩ => rfl
  | ⟨1, _⟩ => rfl
  | ⟨2, _⟩ => show l.val % 128 = l.val; exact Nat.mod_eq_of_lt l.isLt

end Cert.Chamfer.K
end
-- ==== Proof.Ops.lean ====
/-
  Operations read at an index: the layout operations, reductions and lane selections that the distance computation
  is made of, each stated at the literal shapes it occurs at and read at an index written by its coordinates.

  A column `u : [a]` viewed `[a, 1]` and repeated along the second axis reads `u n` at `(n, m)`; a row viewed
  `[1, b]` and repeated along the first reads `u m`.  A sum over one axis is the sum over that axis's coordinates,
  a minimum over one axis the fold of `min` from `+∞` over them.  A total sum of an array with one long axis is the sum
  along that axis.  A vector of lanes built by nested selections on "lane number = k" reads, at lane k, the k-th value.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.Chamfer.Ops

open Idealize.ShloMosaic Idealize.ShloMosaic.ValueIdx

/-! ## A column and a row, repeated -/

/-- A vector `[a]` viewed as the column `[a, 1]` reads, at `(i, 0)`, its entry `i`: the two row-major positions are
    `i` and `i · 1 + 0`. -/
theorem cast_a_a1 {α : Type} {a : ℕ} (u : (⟨1, ![a]⟩ : Shape).Idx → α) (h : (⟨1, ![a]⟩ : Shape).ShapeCasts ⟨2, ![a, 1]⟩)
    (i : Fin a) (z : Fin 1) : shapeCast ⟨2, ![a, 1]⟩ u h (ix2 i z) = u (ix1 i) :=
  shapeCast_apply u h _ _ (by
    have hz : z.val = 0 := by omega
    rw [Shape.rowMajor_val_two, Shape.rowMajor_val_one]
    show i.val = i.val * 1 + z.val
    rw [hz, Nat.mul_one, Nat.add_zero])

/-- One column `[a, 1]` repeated along the second axis reads, at `(p, c)`, the column's entry `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The column of `u` repeated over 512 columns reads `u n` at `(n, m)`. -/
theorem col_bcast (u : FVec Ideal ⟨1, ![4096]⟩ .f32) (h1 : (⟨1, ![4096]⟩ : Shape).ShapeCasts ⟨2, ![4096, 1]⟩)
    (h2 : (⟨2, ![4096, 1]⟩ : Shape).Broadcasts ⟨2, ![4096, 512]⟩) (n : Fin 4096) (m : Fin 512) :
    broadcastTo ⟨2, ![4096, 512]⟩ (shapeCast ⟨2, ![4096, 1]⟩ u h1) h2 (ix2 n m) = u (ix1 n) :=
  (broadcastTo_a1_ab_apply _ h2 n m).trans (cast_a_a1 u h1 n 0)

/-- The row of `u` repeated over 4096 rows reads `u m` at `(n, m)`. -/
theorem row_bcast (u : FVec Ideal ⟨1, ![512]⟩ .f32) (h1 : (⟨1, ![512]⟩ : Shape).ShapeCasts ⟨2, ![1, 512]⟩)
    (h2 : (⟨2, ![1, 512]⟩ : Shape).Broadcasts ⟨2, ![4096, 512]⟩) (n : Fin 4096) (m : Fin 512) :
    broadcastTo ⟨2, ![4096, 512]⟩ (shapeCast ⟨2, ![1, 512]⟩ u h1) h2 (ix2 n m) = u (ix1 m) :=
  (broadcastTo_1b_ab_apply _ h2 n m).trans (shapeCast_a_1a_apply u h1 0 m)

/-! ## Sums over one axis -/

/-- The sum over the last axis of a `[4096, 3]` array, at `n`, is the sum of row `n`'s three entries. -/
theorem sum_last (w : FVec Ideal ⟨2, ![4096, 3]⟩ .f32) (h : (⟨2, ![4096, 3]⟩ : Shape).Reduces [1] ⟨1, ![4096]⟩)
    (hφ : FKind.Formats .f32) (hacc : (0x00000000#32 : BitVec 32) = 0x00000000#32) (n : Fin 4096) :
    multiReduction .add [1] ⟨1, ![4096]⟩ w 0x00000000#32 h hφ hacc (ix1 n) = ∑ k : Fin 3, w (ix2 n k) := by
  refine (Ideal.multiReduction_add_single w 0x00000000#32 h hφ hacc (ix1 n)).trans ?_
  show ∑ k : Fin 3, w (h.lift (ix1 n) k) = _
  exact Finset.sum_congr rfl fun k _ => congrArg w (funext fun a => Fin.ext (by
    match a with | ⟨0, _⟩ => rfl | ⟨1, _⟩ => rfl))

/-- The sum over the first axis of a `[3, 512]` array, at `m`, is the sum of column `m`'s three entries. -/
theorem sum_first (w : FVec Ideal ⟨2, ![3, 512]⟩ .f32) (h : (⟨2, ![3, 512]⟩ : Shape).Reduces [0] ⟨1, ![512]⟩)
    (hφ : FKind.Formats .f32) (hacc : (0x00000000#32 : BitVec 32) = 0x00000000#32) (m : Fin 512) :
    multiReduction .add [0] ⟨1, ![512]⟩ w 0x00000000#32 h hφ hacc (ix1 m) = ∑ k : Fin 3, w (ix2 k m) := by
  refine (Ideal.multiReduction_add_single w 0x00000000#32 h hφ hacc (ix1 m)).trans ?_
  show ∑ k : Fin 3, w (h.lift (ix1 m) k) = _
  exact Finset.sum_congr rfl fun k _ => congrArg w (funext fun a => Fin.ext (by
    match a with | ⟨0, _⟩ => rfl | ⟨1, _⟩ => rfl))

/-! ## Minima over one axis -/

/-- A minimum over one axis, read at the extended reals: the fold of `min` from the accumulator's value over that
    axis's coordinates (the companion of the library's reading of a maximum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the last axis of a `[4096, 512]` array, at `n`: the least of row `n`'s entries, from `+∞`. -/
theorem min_last (w : FVec Ideal ⟨2, ![4096, 512]⟩ .f32) (h : (⟨2, ![4096, 512]⟩ : Shape).Reduces [1] ⟨1, ![4096]⟩)
    (hφ : FKind.Formats .f32) (hacc : (0x7F800000#32 : BitVec 32) = 0x7F800000#32) (n : Fin 4096) :
    multiReduction .minimumf [1] ⟨1, ![4096]⟩ w 0x7F800000#32 h hφ hacc (ix1 n)
      = (Finset.univ : Finset (Fin 512)).fold min (Ideal.ofBits .f32 0x7F800000#32) (fun m => w (ix2 n m)) := by
  refine (multiReduction_minimumf_single w 0x7F800000#32 h hφ hacc (ix1 n)).trans ?_
  show (Finset.univ : Finset (Fin 512)).fold min (Ideal.ofBits .f32 0x7F800000#32) (w ∘ h.lift (ix1 n)) = _
  exact congrArg (fun f => (Finset.univ : Finset (Fin 512)).fold min (Ideal.ofBits .f32 0x7F800000#32) f)
    (funext fun m => congrArg w (funext fun a => Fin.ext (by match a with | ⟨0, _⟩ => rfl | ⟨1, _⟩ => rfl)))

/-- The minimum over the first axis of a `[4096, 512]` array, at `m`: the least of column `m`'s entries, from `+∞`. -/
theorem min_first (w : FVec Ideal ⟨2, ![4096, 512]⟩ .f32) (h : (⟨2, ![4096, 512]⟩ : Shape).Reduces [0] ⟨1, ![512]⟩)
    (hφ : FKind.Formats .f32) (hacc : (0x7F800000#32 : BitVec 32) = 0x7F800000#32) (m : Fin 512) :
    multiReduction .minimumf [0] ⟨1, ![512]⟩ w 0x7F800000#32 h hφ hacc (ix1 m)
      = (Finset.univ : Finset (Fin 4096)).fold min (Ideal.ofBits .f32 0x7F800000#32) (fun n => w (ix2 n m)) := by
  refine (multiReduction_minimumf_single w 0x7F800000#32 h hφ hacc (ix1 m)).trans ?_
  show (Finset.univ : Finset (Fin 4096)).fold min (Ideal.ofBits .f32 0x7F800000#32) (w ∘ h.lift (ix1 m)) = _
  exact congrArg (fun f => (Finset.univ : Finset (Fin 4096)).fold min (Ideal.ofBits .f32 0x7F800000#32) f)
    (funext fun n => congrArg w (funext fun a => Fin.ext (by match a with | ⟨0, _⟩ => rfl | ⟨1, _⟩ => rfl)))

/-! ## Total sums of an array with one long axis -/

/-- The one entry of a `[1]` array, viewed `[1, 1, 1]` and extracted at `(0, 0, 0)`, is its entry `0`. -/
theorem extract_cast_one {α : Type} (X : (⟨1, ![1]⟩ : Shape).Idx → α) (h2 : (⟨1, ![1]⟩ : Shape).ShapeCasts ⟨3, ![1, 1, 1]⟩)
    (h3 : ∀ a, (![0, 0, 0] : Fin 3 → Nat) a < (⟨3, ![1, 1, 1]⟩ : Shape).size a) :
    extractAt ![0, 0, 0] (shapeCast ⟨3, ![1, 1, 1]⟩ X h2) h3 = X (ix1 (0 : Fin 1)) := by
  show shapeCast ⟨3, ![1, 1, 1]⟩ X h2 (fun a => ⟨(![0, 0, 0] : Fin 3 → Nat) a, h3 a⟩) = _
  refine shapeCast_apply X h2 _ _ ?_
  rw [Shape.rowMajor_val_one, Shape.rowMajor_val_three]
  rfl

/-- An index of a `[1, a, 1]` array is its middle coordinate. -/
def colEquiv (a : ℕ) : (⟨3, ![1, a, 1]⟩ : Shape).Idx ≃ Fin a where
  toFun i := i 1
  invFun n := ix3 (0 : Fin 1) n (0 : Fin 1)
  left_inv i := by
    funext ax
    match ax with
    | ⟨0, _⟩ => exact Subsingleton.elim (α := Fin 1) _ _
    | ⟨1, _⟩ => rfl
    | ⟨2, _⟩ => exact Subsingleton.elim (α := Fin 1) _ _
  right_inv _ := rfl

/-- An index of a `[1, 1, b]` array is its last coordinate. -/
def rowEquiv (b : ℕ) : (⟨3, ![1, 1, b]⟩ : Shape).Idx ≃ Fin b where
  toFun i := i 2
  invFun m := ix3 (0 : Fin 1) (0 : Fin 1) m
  left_inv i := by
    funext ax
    match ax with
    | ⟨0, _⟩ => exact Subsingleton.elim (α := Fin 1) _ _
    | ⟨1, _⟩ => exact Subsingleton.elim (α := Fin 1) _ _
    | ⟨2, _⟩ => rfl
  right_inv _ := rfl

/-- The total of a `[1, 4096, 1]` array, taken as a reduction over its last two axes into `[1]`, viewed
    `[1, 1, 1]` and extracted: the sum along the long axis. -/
theorem total_col (w : FVec Ideal ⟨3, ![1, 4096, 1]⟩ .f32) (h : (⟨3, ![1, 4096, 1]⟩ : Shape).Reduces [1, 2] ⟨1, ![1]⟩)
    (hφ : FKind.Formats .f32) (hacc : (0x00000000#32 : BitVec 32) = 0x00000000#32)
    (h2 : (⟨1, ![1]⟩ : Shape).ShapeCasts ⟨3, ![1, 1, 1]⟩)
    (h3 : ∀ a, (![0, 0, 0] : Fin 3 → Nat) a < (⟨3, ![1, 1, 1]⟩ : Shape).size a) :
    extractAt ![0, 0, 0] (shapeCast ⟨3, ![1, 1, 1]⟩ (multiReduction .add [1, 2] ⟨1, ![1]⟩ w 0x00000000#32 h hφ hacc) h2) h3
      = ∑ n : Fin 4096, w (ix3 (0 : Fin 1) n (0 : Fin 1)) := by
  refine (extract_cast_one _ h2 h3).trans ?_
  refine (Ideal.multiReduction_add_total w 0x00000000#32 h (fun b => by match b with | ⟨0, _⟩ => rfl) hφ hacc
    (ix1 (0 : Fin 1))).trans ?_
  exact Fintype.sum_equiv (colEquiv 4096) w (fun n => w (ix3 (0 : Fin 1) n (0 : Fin 1)))
    (fun i => congrArg w ((colEquiv 4096).left_inv i).symm)

/-- The total of a `[1, 1, 512]` array likewise: the sum along the long axis. -/
theorem total_row (w : FVec Ideal ⟨3, ![1, 1, 512]⟩ .f32) (h : (⟨3, ![1, 1, 512]⟩ : Shape).Reduces [1, 2] ⟨1, ![1]⟩)
    (hφ : FKind.Formats .f32) (hacc : (0x00000000#32 : BitVec 32) = 0x00000000#32)
    (h2 : (⟨1, ![1]⟩ : Shape).ShapeCasts ⟨3, ![1, 1, 1]⟩)
    (h3 : ∀ a, (![0, 0, 0] : Fin 3 → Nat) a < (⟨3, ![1, 1, 1]⟩ : Shape).size a) :
    extractAt ![0, 0, 0] (shapeCast ⟨3, ![1, 1, 1]⟩ (multiReduction .add [1, 2] ⟨1, ![1]⟩ w 0x00000000#32 h hφ hacc) h2) h3
      = ∑ m : Fin 512, w (ix3 (0 : Fin 1) (0 : Fin 1) m) := by
  refine (extract_cast_one _ h2 h3).trans ?_
  refine (Ideal.multiReduction_add_total w 0x00000000#32 h (fun b => by match b with | ⟨0, _⟩ => rfl) hφ hacc
    (ix1 (0 : Fin 1))).trans ?_
  exact Fintype.sum_equiv (rowEquiv 512) w (fun m => w (ix3 (0 : Fin 1) (0 : Fin 1) m))
    (fun i => congrArg w ((rowEquiv 512).left_inv i).symm)

/-! ## A vector of lanes built by selections on the lane number -/

/-- The `[1, 128]` vector whose lanes 0, 1, 2, 3 hold `a`, `b`, `c`, `d` and every other lane `z`, as nested selections on
    "lane number = k", the outermost testing `k = 3`. -/
def lanes (hio : (⟨2, ![1, 128]⟩ : Shape).Iotas .tc 32 [1]) (a b c d z : EReal) : FVec Ideal ⟨2, ![1, 128]⟩ .f32 :=
  select (cmpi .eq (iota .tc ⟨2, ![1, 128]⟩ 32 [1] hio) (broadcast ⟨2, ![1, 128]⟩ 3#32)) (broadcast ⟨2, ![1, 128]⟩ d)
    (select (cmpi .eq (iota .tc ⟨2, ![1, 128]⟩ 32 [1] hio) (broadcast ⟨2, ![1, 128]⟩ 2#32)) (broadcast ⟨2, ![1, 128]⟩ c)
      (select (cmpi .eq (iota .tc ⟨2, ![1, 128]⟩ 32 [1] hio) (broadcast ⟨2, ![1, 128]⟩ 1#32)) (broadcast ⟨2, ![1, 128]⟩ b)
        (select (cmpi .eq (iota .tc ⟨2, ![1, 128]⟩ 32 [1] hio) (broadcast ⟨2, ![1, 128]⟩ 0#32)) (broadcast ⟨2, ![1, 128]⟩ a)
          (broadcast ⟨2, ![1, 128]⟩ z))))

/-- The definition written out, for matching a printed term. -/
theorem lanes_def (hio : (⟨2, ![1, 128]⟩ : Shape).Iotas .tc 32 [1]) (a b c d z : EReal) :
    lanes hio a b c d z
      = select (cmpi .eq (iota .tc ⟨2, ![1, 128]⟩ 32 [1] hio) (broadcast ⟨2, ![1, 128]⟩ 3#32)) (broadcast ⟨2, ![1, 128]⟩ d)
          (select (cmpi .eq (iota .tc ⟨2, ![1, 128]⟩ 32 [1] hio) (broadcast ⟨2, ![1, 128]⟩ 2#32)) (broadcast ⟨2, ![1, 128]⟩ c)
            (select (cmpi .eq (iota .tc ⟨2, ![1, 128]⟩ 32 [1] hio) (broadcast ⟨2, ![1, 128]⟩ 1#32)) (broadcast ⟨2, ![1, 128]⟩ b)
              (select (cmpi .eq (iota .tc ⟨2, ![1, 128]⟩ 32 [1] hio) (broadcast ⟨2, ![1, 128]⟩ 0#32)) (broadcast ⟨2, ![1, 128]⟩ a)
                (broadcast ⟨2, ![1, 128]⟩ z)))) := rfl

/-- At lane `l` the vector is the chain of selections on the word of `l`. -/
theorem lanes_apply (hio : (⟨2, ![1, 128]⟩ : Shape).Iotas .tc 32 [1]) (a b c d z : EReal) (l : Fin 128) :
    lanes hio a b c d z (ix2 (0 : Fin 1) l)
      = Scalar.select (IntOp.cmpi .eq (BitVec.ofNat 32 l.val) 3#32) d
          (Scalar.select (IntOp.cmpi .eq (BitVec.ofNat 32 l.val) 2#32) c
            (Scalar.select (IntOp.cmpi .eq (BitVec.ofNat 32 l.val) 1#32) b
              (Scalar.select (IntOp.cmpi .eq (BitVec.ofNat 32 l.val) 0#32) a z))) := by
  have hi : iota .tc ⟨2, ![1, 128]⟩ 32 [1] hio (ix2 (0 : Fin 1) l) = BitVec.ofNat 32 l.val :=
    iota_single_apply .tc ⟨2, ![1, 128]⟩ 32 1 hio (ix2 (0 : Fin 1) l)
  unfold lanes
  simp only [select_apply, broadcast_apply]
  show Scalar.select (IntOp.cmpi .eq (iota .tc ⟨2, ![1, 128]⟩ 32 [1] hio (ix2 (0 : Fin 1) l)) 3#32) d
      (Scalar.select (IntOp.cmpi .eq (iota .tc ⟨2, ![1, 128]⟩ 32 [1] hio (ix2 (0 : Fin 1) l)) 2#32) c
        (Scalar.select (IntOp.cmpi .eq (iota .tc ⟨2, ![1, 128]⟩ 32 [1] hio (ix2 (0 : Fin 1) l)) 1#32) b
          (Scalar.select (IntOp.cmpi .eq (iota .tc ⟨2, ![1, 128]⟩ 32 [1] hio (ix2 (0 : Fin 1) l)) 0#32) a z))) = _
  rw [hi]

theorem lane0 (hio : (⟨2, ![1, 128]⟩ : Shape).Iotas .tc 32 [1]) (a b c d z : EReal) :
    lanes hio a b c d z (ix2 (0 : Fin 1) (⟨0, by decide⟩ : Fin 128)) = a := by
  rw [lanes_apply]
  rw [show IntOp.cmpi .eq (BitVec.ofNat 32 0) 3#32 = 0#1 by decide, show IntOp.cmpi .eq (BitVec.ofNat 32 0) 2#32 = 0#1 by decide,
    show IntOp.cmpi .eq (BitVec.ofNat 32 0) 1#32 = 0#1 by decide, show IntOp.cmpi .eq (BitVec.ofNat 32 0) 0#32 = 1#1 by decide,
    select_zero, select_zero, select_zero, select_one]

theorem lane1 (hio : (⟨2, ![1, 128]⟩ : Shape).Iotas .tc 32 [1]) (a b c d z : EReal) :
    lanes hio a b c d z (ix2 (0 : Fin 1) (⟨1, by decide⟩ : Fin 128)) = b := by
  rw [lanes_apply]
  rw [show IntOp.cmpi .eq (BitVec.ofNat 32 1) 3#32 = 0#1 by decide, show IntOp.cmpi .eq (BitVec.ofNat 32 1) 2#32 = 0#1 by decide,
    show IntOp.cmpi .eq (BitVec.ofNat 32 1) 1#32 = 1#1 by decide, select_zero, select_zero, select_one]

theorem lane2 (hio : (⟨2, ![1, 128]⟩ : Shape).Iotas .tc 32 [1]) (a b c d z : EReal) :
    lanes hio a b c d z (ix2 (0 : Fin 1) (⟨2, by decide⟩ : Fin 128)) = c := by
  rw [lanes_apply]
  rw [show IntOp.cmpi .eq (BitVec.ofNat 32 2) 3#32 = 0#1 by decide, show IntOp.cmpi .eq (BitVec.ofNat 32 2) 2#32 = 1#1 by decide,
    select_zero, select_one]

theorem lane3 (hio : (⟨2, ![1, 128]⟩ : Shape).Iotas .tc 32 [1]) (a b c d z : EReal) :
    lanes hio a b c d z (ix2 (0 : Fin 1) (⟨3, by decide⟩ : Fin 128)) = d := by
  rw [lanes_apply]
  rw [show IntOp.cmpi .eq (BitVec.ofNat 32 3) 3#32 = 1#1 by decide, select_one]

end Cert.Chamfer.Ops

end
-- ==== Proof.Law.lean ====
/-
  The one algebraic law between the two programs: for real points `p, c ∈ ℝ³`
      max (|p|² + |c|² - 2·(p·c), 0) = Σ_k (p_k - c_k)²,
  the expansion of the square; the right side is a sum of squares, so the clamp at zero does nothing.
  It is stated on the extended reals for entries that are real numbers (on infinite entries the
  expansion fails: +∞ - +∞ is not a square).
-/
import Idealize.ShloMosaic.PureOps.Ideal
import Idealize.ShloMosaic.PureOps.Ideal.Laws

noncomputable section

namespace Cert.Chamfer

open Idealize.ShloMosaic

/-- The f32 word of `2.0` denotes the real number 2. -/
theorem ofBits_two : Ideal.ofBits .f32 0x40000000#32 = ((2 : ℝ) : EReal) := by
  simp [Ideal.ofBits, Ideal.ieee, -EReal.coe_mul]; norm_num

/-- The expansion of the square over real coordinates, with the clamp at zero removed. -/
theorem sq_expand_real (p c : Fin 3 → ℝ) :
    max (((∑ k, (p k : EReal) * (p k : EReal)) + (∑ k, (c k : EReal) * (c k : EReal)))
          - ((2 : ℝ) : EReal) * (∑ k, (p k : EReal) * (c k : EReal))) 0
      = ∑ k, ((p k : EReal) - (c k : EReal)) * ((p k : EReal) - (c k : EReal)) := by
  simp only [Fin.sum_univ_three]
  simp only [← EReal.coe_mul, ← EReal.coe_add, ← EReal.coe_sub]
  have e : p 0 * p 0 + p 1 * p 1 + p 2 * p 2 + (c 0 * c 0 + c 1 * c 1 + c 2 * c 2)
        - 2 * (p 0 * c 0 + p 1 * c 1 + p 2 * c 2)
      = (p 0 - c 0) * (p 0 - c 0) + (p 1 - c 1) * (p 1 - c 1) + (p 2 - c 2) * (p 2 - c 2) := by ring
  rw [e]
  exact max_eq_left (EReal.coe_nonneg.mpr (add_nonneg (add_nonneg (mul_self_nonneg _) (mul_self_nonneg _)) (mul_self_nonneg _)))

/-- The same for extended-real entries known to be real, with the constants as their f32 words. -/
theorem sq_expand (P C : Fin 3 → EReal) (hP : ∀ k, ∃ r : ℝ, P k = (r : EReal)) (hC : ∀ k, ∃ r : ℝ, C k = (r : EReal)) :
    max (((∑ k, P k * P k) + (∑ k, C k * C k)) - Ideal.ofBits .f32 0x40000000#32 * (∑ k, P k * C k))
        (Ideal.ofBits .f32 0x00000000#32)
      = ∑ k, (P k - C k) * (P k - C k) := by
  choose p hp using hP
  choose c hc using hC
  rw [ofBits_two, Ideal.ofBits_zero_f32]
  simp only [hp, hc]
  exact sq_expand_real p c

end Cert.Chamfer

end
-- ==== Proof.Block.lean ====
/-
  One batch's share of the loss, as the kernel computes it from the four blocks it is handed:
  a [1, 4096, 3] block of points, a [1, 3, 512] block of centres (transposed), a [1, 1, 512] block of the mask
  and a [1, 4096, 1] block of integer weights. The kernel forms the squared distance by the expansion
      |p|² + |c|² - 2 (p·c),  clamped below at zero,
  takes its minimum along each axis, and sums the minima against the weights and the mask.
  For real entries the clamped expansion IS the squared distance (Law.lean), so each of the four sums
  is the specification's for that batch.
-/
import proofs.«128054_j9740985827850_2_alg».proof.Proof.Spec
import proofs.«128054_j9740985827850_2_alg».proof.Proof.Law

noncomputable section

namespace Cert.Chamfer

open Idealize.ShloMosaic Idealize.ShloMosaic.ValueIdx

/-- The four blocks' shapes. -/
abbrev BP : Shape := ⟨3, ![1, 4096, 3]⟩
abbrev BC : Shape := ⟨3, ![1, 3, 512]⟩
abbrev BW : Shape := ⟨3, ![1, 1, 512]⟩
abbrev BO : Shape := ⟨3, ![1, 4096, 1]⟩

/-- The clamped expansion of the squared distance between point `n` and centre `m` of the blocks. -/
def cdist (x0 : BP.Idx → EReal) (x1 : BC.Idx → EReal) (n : Fin 4096) (m : Fin 512) : EReal :=
  max (((∑ k : Fin 3, x0 (ix3 (0 : Fin 1) n k) * x0 (ix3 (0 : Fin 1) n k))
        + (∑ k : Fin 3, x1 (ix3 (0 : Fin 1) k m) * x1 (ix3 (0 : Fin 1) k m)))
      - Ideal.ofBits .f32 0x40000000#32 * (∑ k : Fin 3, x0 (ix3 (0 : Fin 1) n k) * x1 (ix3 (0 : Fin 1) k m)))
    (Ideal.ofBits .f32 0x00000000#32)

def bnear1 (x0 : BP.Idx → EReal) (x1 : BC.Idx → EReal) (n : Fin 4096) : EReal :=
  (Finset.univ : Finset (Fin 512)).fold min (Ideal.ofBits .f32 0x7F800000#32) (fun m => cdist x0 x1 n m)

def bnear2 (x0 : BP.Idx → EReal) (x1 : BC.Idx → EReal) (m : Fin 512) : EReal :=
  (Finset.univ : Finset (Fin 4096)).fold min (Ideal.ofBits .f32 0x7F800000#32) (fun n => cdist x0 x1 n m)

/-- Point `n`'s integer weight, read exactly. -/
def bwt (x3 : BO.Idx → BitVec 32) (n : Fin 4096) : EReal := (((x3 (ix3 (0 : Fin 1) n (0 : Fin 1))).toInt : ℝ) : EReal)

def bnum1 (x0 : BP.Idx → EReal) (x1 : BC.Idx → EReal) (x3 : BO.Idx → BitVec 32) : EReal :=
  ∑ n : Fin 4096, bnear1 x0 x1 n * bwt x3 n

def bden1 (x3 : BO.Idx → BitVec 32) : EReal := ∑ n : Fin 4096, bwt x3 n

def bnum2 (x0 : BP.Idx → EReal) (x1 : BC.Idx → EReal) (x2 : BW.Idx → EReal) : EReal :=
  ∑ m : Fin 512, bnear2 x0 x1 m * x2 (ix3 (0 : Fin 1) (0 : Fin 1) m)

def bden2 (x2 : BW.Idx → EReal) : EReal := ∑ m : Fin 512, x2 (ix3 (0 : Fin 1) (0 : Fin 1) m)

section Batch

-- The blocks of batch `b`: each block entry is the array's entry of that batch (the centres transposed).
variable (P : SP.Idx → EReal) (C : SC.Idx → EReal) (W : SW.Idx → EReal) (O : SO.Idx → BitVec 32)
  (hP : ∀ i, ∃ r : ℝ, P i = (r : EReal)) (hC : ∀ i, ∃ r : ℝ, C i = (r : EReal))
  (b : Fin 16) (x0 : BP.Idx → EReal) (x1 : BC.Idx → EReal) (x2 : BW.Idx → EReal) (x3 : BO.Idx → BitVec 32)
  (h0 : ∀ n k, x0 (ix3 (0 : Fin 1) n k) = P (ix3 b n k))
  (h1 : ∀ k m, x1 (ix3 (0 : Fin 1) k m) = C (ix3 b m k))
  (h2 : ∀ m, x2 (ix3 (0 : Fin 1) (0 : Fin 1) m) = W (ix2 b m))
  (h3 : ∀ n, x3 (ix3 (0 : Fin 1) n (0 : Fin 1)) = O (ix2 b n))

include hP hC h0 h1 in
/-- On real entries the clamped expansion is the squared distance. -/
theorem cdist_eq (n : Fin 4096) (m : Fin 512) : cdist x0 x1 n m = sqd P C b n m := by
  unfold cdist sqd
  simp only [h0, h1]
  exact sq_expand (fun k => P (ix3 b n k)) (fun k => C (ix3 b m k)) (fun _ => hP _) (fun _ => hC _)

include hP hC h0 h1 in
theorem bnear1_eq (n : Fin 4096) : bnear1 x0 x1 n = near1 P C b n := by
  unfold bnear1 near1 inf
  exact congrArg (fun f => (Finset.univ : Finset (Fin 512)).fold min (Ideal.ofBits .f32 0x7F800000#32) f)
    (funext fun m => cdist_eq P C hP hC b x0 x1 h0 h1 n m)

include hP hC h0 h1 in
theorem bnear2_eq (m : Fin 512) : bnear2 x0 x1 m = near2 P C b m := by
  unfold bnear2 near2 inf
  exact congrArg (fun f => (Finset.univ : Finset (Fin 4096)).fold min (Ideal.ofBits .f32 0x7F800000#32) f)
    (funext fun n => cdist_eq P C hP hC b x0 x1 h0 h1 n m)

include h3 in
theorem bwt_eq (n : Fin 4096) : bwt x3 n = wt O b n := by
  unfold bwt wt; rw [h3]

include hP hC h0 h1 h3 in
theorem bnum1_eq : bnum1 x0 x1 x3 = num1 P C O b := by
  unfold bnum1 num1
  exact Finset.sum_congr rfl fun n _ => by rw [bnear1_eq P C hP hC b x0 x1 h0 h1 n, bwt_eq O b x3 h3 n]

include h3 in
theorem bden1_eq : bden1 x3 = den1 O b := by
  unfold bden1 den1
  exact Finset.sum_congr rfl fun n _ => bwt_eq O b x3 h3 n

include hP hC h0 h1 h2 in
theorem bnum2_eq : bnum2 x0 x1 x2 = num2 P C W b := by
  unfold bnum2 num2
  exact Finset.sum_congr rfl fun m _ => by rw [bnear2_eq P C hP hC b x0 x1 h0 h1 m, h2]

include h2 in
theorem bden2_eq : bden2 x2 = den2 W b := by
  unfold bden2 den2
  exact Finset.sum_congr rfl fun m _ => h2 m

end Batch

end Cert.Chamfer

end
-- ==== Proof.Body.lean ====
/-
  The kernel body's arithmetic, read entry by entry at the extended reals: from the blocks it loads
  (points `v0`, transposed centres `v2`, mask `v4`, integer weights `v6`) each of the four numbers it stores in
  lanes 0..3 of its output row is the corresponding one-batch sum of Block.lean.
-/
import proofs.«128054_j9740985827850_2_alg».proof.Proof.Gen.KernelIdeal.Skeleton
import proofs.«128054_j9740985827850_2_alg».proof.Proof.Ops
import proofs.«128054_j9740985827850_2_alg».proof.Proof.Block
import Idealize.ShloMosaic.Lib.ValueIdx
import Idealize.ShloMosaic.Lib.ValueLayout
import Idealize.ShloMosaic.PureOps.Ideal.Laws

noncomputable section

namespace Cert.Chamfer.Body

open Cert.KernelIdeal Cert.KernelIdeal.Gen Cert.KernelIdeal.Facts₀ Idealize.ShloMosaic Idealize.ShloMosaic.ValueIdx Cert.Chamfer

variable [Cert.KernelIdeal.Facts]

/-- The matrix product of a [4096, 3] and a [3, 512] operand into a zero accumulator, at `(n, m)`: the sum over the
    three contracted coordinates. -/
theorem cross_apply (a : FVec Ideal S4096x3 .f32) (b : FVec Ideal S3x512 .f32) (n : Fin 4096) (m : Fin 512) :
    matmul dot_S4096x3_S3x512_S4096x512_1_0_0_1_n_n none a b (constant (F := Ideal) S4096x512 .f32 0x00000000#32) (ix2 n m)
      = ∑ k : Fin 3, a (ix2 n k) * b (ix2 k m) := by
  refine (Ideal.matmul_constant_zero_apply dot_S4096x3_S3x512_S4096x512_1_0_0_1_n_n none a b (ix2 n m)).trans ?_
  refine (Equiv.sum_comp (contrEquiv1 dot_S4096x3_S3x512_S4096x512_1_0_0_1_n_n 3 rfl rfl).symm _).symm.trans ?_
  refine Finset.sum_congr rfl fun k _ => ?_
  have hk := contrEquiv1_symm_val dot_S4096x3_S3x512_S4096x512_1_0_0_1_n_n 3 rfl rfl k
  refine congrArg₂ (· * ·) (congrArg a ?_) (congrArg b ?_)
  · funext ax; apply Fin.ext
    match ax with
    | ⟨0, _⟩ => rfl
    | ⟨1, _⟩ => exact hk
  · funext ax; apply Fin.ext
    match ax with
    | ⟨0, _⟩ => exact hk
    | ⟨1, _⟩ => rfl

/-- The clamped expansion: the body's distance matrix at `(n, m)`. -/
theorem pay4_apply (v0 : Vec Ideal S1x4096x3 .f32) (v2 : Vec Ideal S1x3x512 .f32) (n : Fin 4096) (m : Fin 512) :
    k0_pay4 (F := Ideal) v0 v2 (ix2 n m) = cdist v0 v2 n m := by
  unfold k0_pay4 cdist
  show max ((broadcastTo S4096x512 (shapeCast S4096x1 (multiReduction .add [1] S4096 (mulf (shapeCast S4096x3 v0 _) (shapeCast S4096x3 v0 _)) 0x00000000#32 _ _ _) _) _ (ix2 n m)
        + broadcastTo S4096x512 (shapeCast S1x512 (multiReduction .add [0] S512 (mulf (shapeCast S3x512 v2 _) (shapeCast S3x512 v2 _)) 0x00000000#32 _ _ _) _) _ (ix2 n m))
      - Ideal.ofBits .f32 0x40000000#32 * matmul _ none (shapeCast S4096x3 v0 _) (shapeCast S3x512 v2 _) (constant (F := Ideal) S4096x512 .f32 0x00000000#32) (ix2 n m))
      (Ideal.ofBits .f32 0x00000000#32) = _
  refine congrArg₂ max (congrArg₂ (· - ·) (congrArg₂ (· + ·) ?_ ?_) (congrArg (_ * ·) ?_)) rfl
  · refine (Ops.col_bcast _ _ _ n m).trans ((Ops.sum_last _ _ _ _ n).trans (Finset.sum_congr rfl fun k _ => ?_))
    show shapeCast S4096x3 v0 _ (ix2 n k) * shapeCast S4096x3 v0 _ (ix2 n k) = _
    rw [shapeCast_1ab_ab_apply]
  · refine (Ops.row_bcast _ _ _ n m).trans ((Ops.sum_first _ _ _ _ m).trans (Finset.sum_congr rfl fun k _ => ?_))
    show shapeCast S3x512 v2 _ (ix2 k m) * shapeCast S3x512 v2 _ (ix2 k m) = _
    rw [shapeCast_1ab_ab_apply]
  · refine (cross_apply _ _ n m).trans (Finset.sum_congr rfl fun k _ => ?_)
    rw [shapeCast_1ab_ab_apply, shapeCast_1ab_ab_apply]

/-- The mask block seen as one row. -/
theorem pay2_apply (v4 : Vec Ideal S1x1x512 .f32) (m : Fin 512) :
    k0_pay2 (F := Ideal) v4 (ix2 (0 : Fin 1) m) = v4 (ix3 (0 : Fin 1) (0 : Fin 1) m) := by
  unfold k0_pay2
  exact shapeCast_1ab_ab_apply _ _ (0 : Fin 1) m

/-- The integer weights as one column of exact reals. -/
theorem pay3_apply (v6 : Vec Ideal S1x4096x1 .i32) (n : Fin 4096) :
    k0_pay3 (F := Ideal) v6 (ix2 n (0 : Fin 1)) = bwt v6 n := by
  unfold k0_pay3 bwt
  show FloatOps.sitofp (F := Ideal) .f32 (shapeCast S4096x1 v6 _ (ix2 n (0 : Fin 1))) = _
  rw [shapeCast_1ab_ab_apply]
  rfl

/-- Lane 0: the sum over the points of (distance to the nearest centre) × weight. -/
theorem pay5_eq (v0 : Vec Ideal S1x4096x3 .f32) (v2 : Vec Ideal S1x3x512 .f32) (v6 : Vec Ideal S1x4096x1 .i32) :
    k0_pay5 (F := Ideal) v0 v2 v6 = bnum1 v0 v2 v6 := by
  unfold k0_pay5 bnum1
  refine (Ops.total_col _ _ _ _ _ _).trans (Finset.sum_congr rfl fun n _ => ?_)
  refine (shapeCast_ab_1ab_apply _ _ (0 : Fin 1) n (0 : Fin 1)).trans ?_
  refine (mulf_apply _ _ _).trans ?_
  refine congrArg₂ (· * ·) ?_ (pay3_apply v6 n)
  refine (Ops.cast_a_a1 _ _ n (0 : Fin 1)).trans ((Ops.min_last _ _ _ _ n).trans ?_)
  unfold bnear1
  exact congrArg (fun f => (Finset.univ : Finset (Fin 512)).fold min (Ideal.ofBits .f32 0x7F800000#32) f)
    (funext fun m => pay4_apply v0 v2 n m)

/-- Lane 1: the sum of the weights. -/
theorem pay6_eq (v6 : Vec Ideal S1x4096x1 .i32) : k0_pay6 (F := Ideal) v6 = bden1 v6 := by
  unfold k0_pay6 bden1
  refine (Ops.total_col _ _ _ _ _ _).trans (Finset.sum_congr rfl fun n _ => ?_)
  exact (shapeCast_ab_1ab_apply _ _ (0 : Fin 1) n (0 : Fin 1)).trans (pay3_apply v6 n)

/-- The row of (distance to the nearest point) × mask. -/
theorem pay7_apply (v0 : Vec Ideal S1x4096x3 .f32) (v2 : Vec Ideal S1x3x512 .f32) (v4 : Vec Ideal S1x1x512 .f32) (m : Fin 512) :
    k0_pay7 (F := Ideal) v0 v2 v4 (ix2 (0 : Fin 1) m) = bnear2 v0 v2 m * v4 (ix3 (0 : Fin 1) (0 : Fin 1) m) := by
  unfold k0_pay7
  refine (mulf_apply _ _ _).trans ?_
  refine congrArg₂ (· * ·) ?_ (pay2_apply v4 m)
  refine (shapeCast_a_1a_apply _ _ (0 : Fin 1) m).trans ((Ops.min_first _ _ _ _ m).trans ?_)
  unfold bnear2
  exact congrArg (fun f => (Finset.univ : Finset (Fin 4096)).fold min (Ideal.ofBits .f32 0x7F800000#32) f)
    (funext fun n => pay4_apply v0 v2 n m)

section Lanes
variable (v5 : FVec Ideal S1x512 .f32) (v32 v36 : EReal) (v37 : FVec Ideal S1x512 .f32)

/-- The stored row at lane 0 and at lane 1: the two scalars handed in. -/
theorem pay1_lane0 : k0_pay1 (F := Ideal) v5 v32 v36 v37 (ix3 (0 : Fin 1) (0 : Fin 1) (⟨0, by decide⟩ : Fin 128)) = v32 := by
  unfold k0_pay1
  refine (shapeCast_ab_1ab_apply _ _ (0 : Fin 1) (0 : Fin 1) _).trans ?_
  exact Ops.lane0 _ v32 v36 _ _ _

theorem pay1_lane1 : k0_pay1 (F := Ideal) v5 v32 v36 v37 (ix3 (0 : Fin 1) (0 : Fin 1) (⟨1, by decide⟩ : Fin 128)) = v36 := by
  unfold k0_pay1
  refine (shapeCast_ab_1ab_apply _ _ (0 : Fin 1) (0 : Fin 1) _).trans ?_
  exact Ops.lane1 _ v32 v36 _ _ _

/-- Lane 2: the total of the row `v37`. -/
theorem pay1_lane2 : k0_pay1 (F := Ideal) v5 v32 v36 v37 (ix3 (0 : Fin 1) (0 : Fin 1) (⟨2, by decide⟩ : Fin 128))
    = ∑ m : Fin 512, v37 (ix2 (0 : Fin 1) m) := by
  unfold k0_pay1
  refine (shapeCast_ab_1ab_apply _ _ (0 : Fin 1) (0 : Fin 1) _).trans ?_
  refine (Ops.lane2 _ v32 v36 _ _ _).trans ?_
  refine (Ops.total_row _ _ _ _ _ _).trans (Finset.sum_congr rfl fun m _ => ?_)
  exact shapeCast_ab_1ab_apply _ _ (0 : Fin 1) (0 : Fin 1) m

/-- Lane 3: the total of the row `v5`. -/
theorem pay1_lane3 : k0_pay1 (F := Ideal) v5 v32 v36 v37 (ix3 (0 : Fin 1) (0 : Fin 1) (⟨3, by decide⟩ : Fin 128))
    = ∑ m : Fin 512, v5 (ix2 (0 : Fin 1) m) := by
  unfold k0_pay1
  refine (shapeCast_ab_1ab_apply _ _ (0 : Fin 1) (0 : Fin 1) _).trans ?_
  refine (Ops.lane3 _ v32 v36 _ _ _).trans ?_
  refine (Ops.total_row _ _ _ _ _ _).trans (Finset.sum_congr rfl fun m _ => ?_)
  exact shapeCast_ab_1ab_apply _ _ (0 : Fin 1) (0 : Fin 1) m

end Lanes

/-- The four stored numbers, as one-batch sums of the loaded blocks. -/
def stored (v0 : Vec Ideal S1x4096x3 .f32) (v2 : Vec Ideal S1x3x512 .f32) (v4 : Vec Ideal S1x1x512 .f32) (v6 : Vec Ideal S1x4096x1 .i32) :
    FVec Ideal S1x1x128 .f32 :=
  k0_pay1 (F := Ideal) (k0_pay2 v4) (k0_pay5 v0 v2 v6) (k0_pay6 v6) (k0_pay7 v0 v2 v4)

variable (v0 : Vec Ideal S1x4096x3 .f32) (v2 : Vec Ideal S1x3x512 .f32) (v4 : Vec Ideal S1x1x512 .f32) (v6 : Vec Ideal S1x4096x1 .i32)

theorem stored_lane0 : stored v0 v2 v4 v6 (ix3 (0 : Fin 1) (0 : Fin 1) (⟨0, by decide⟩ : Fin 128)) = bnum1 v0 v2 v6 :=
  (pay1_lane0 _ _ _ _).trans (pay5_eq v0 v2 v6)

theorem stored_lane1 : stored v0 v2 v4 v6 (ix3 (0 : Fin 1) (0 : Fin 1) (⟨1, by decide⟩ : Fin 128)) = bden1 v6 :=
  (pay1_lane1 _ _ _ _).trans (pay6_eq v6)

theorem stored_lane2 : stored v0 v2 v4 v6 (ix3 (0 : Fin 1) (0 : Fin 1) (⟨2, by decide⟩ : Fin 128)) = bnum2 v0 v2 v4 :=
  (pay1_lane2 _ _ _ _).trans (Finset.sum_congr rfl fun m _ => pay7_apply v0 v2 v4 m)

theorem stored_lane3 : stored v0 v2 v4 v6 (ix3 (0 : Fin 1) (0 : Fin 1) (⟨3, by decide⟩ : Fin 128)) = bden2 v4 :=
  (pay1_lane3 _ _ _ _).trans (Finset.sum_congr rfl fun m _ => pay2_apply v4 m)

end Cert.Chamfer.Body

end
-- ==== Proof.Stored.lean ====
/-
  What the body leaves in its output block is one store of the whole row: the row of the four one-batch sums
  (Body.lean) computed from the four blocks it loaded whole.
-/
import proofs.«128054_j9740985827850_2_alg».proof.Proof.Gen.KernelIdeal.Frame
import proofs.«128054_j9740985827850_2_alg».proof.Proof.Body
import Idealize.ShloMosaic.Lib.Pipeline.Value

noncomputable section

namespace Cert.Chamfer.K

open Cert.KernelIdeal Cert.KernelIdeal.Gen Idealize.ShloMosaic Idealize.ShloMosaic.TcCoe Idealize.SL.Sem

/-- The offsets of every load and of the store are zero: each touches its whole block. -/
theorem hz3 : (![0, 0, 0] : Fin 3 → Nat) = fun _ => 0 := funext fun a => by fin_cases a <;> rfl

set_option maxHeartbeats 400000 in
theorem out_eq_stored (x0 : Vec Ideal S1x4096x3 .f32) (x1 : Vec Ideal S1x3x512 .f32) (x2 : Vec Ideal S1x1x512 .f32) (x3 : Vec Ideal S1x4096x1 .i32) :
    out0_4 (F := Ideal) x0 x1 x2 x3 = Body.stored x0 x1 x2 x3 := by
  unfold out0_4 Body.stored
  rw [View.canon_unit_zero hz3]
  simp only [View.ld_unit_zero (S := S1x4096x3) hz3, View.ld_unit_zero (S := S1x3x512) hz3,
    View.ld_unit_zero (S := S1x1x512) hz3, View.ld_unit_zero (S := S1x4096x1) hz3]

end Cert.Chamfer.K

end
-- ==== Proof.Blocks.lean ====
/-
  The kernel's input blocks at a grid point, read off the argument arrays.

  The grid has sixteen points, one per batch, and every input window cuts its array along the batch axis only: the
  block of point b is row b, so the element at (0, x, y) of the block is the array's element at (b, x, y) (a block's
  coordinate is block index × block size + the coordinate inside the block, and the block index is (b, 0, 0)).
  Window 0 reads the point array itself. The other three read arrays the program prepares before the kernel: the
  centres transposed [16, 512, 3] → [16, 3, 512], so (b, k, j) there is the centres' (b, j, k); the mask recast
  [16, 512] → [16, 1, 512] and the integer weights recast [16, 4096] → [16, 4096, 1], where a recast keeps the
  row-major position: (b·1 + 0)·512 + j = b·512 + j and (b·4096 + n)·1 + 0 = b·4096 + n.
-/
import proofs.«128054_j9740985827850_2_alg».proof.Proof.Gen.KernelIdeal.Frame
import proofs.«128054_j9740985827850_2_alg».proof.Proof.Pt
import Idealize.ShloMosaic.Lib.Pipeline.Value
import Idealize.ShloMosaic.Lib.ValueIdx
import Idealize.ShloMosaic.Lib.ValueLayout
import Idealize.ShloMosaic.Lib.StableHlo.Run

noncomputable section

namespace Cert.Chamfer.K

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ)

/-- Before the kernel the centres are transposed: [16, 512, 3] → [16, 3, 512]. -/
theorem V_v0 (c : Dev nD) : (V m c main_v0 : S16x3x512.Idx → EReal)
    = transpose S16x3x512 [0, 2, 1] (m ((c : Thread nD τ).loc main_arg1)) Facts₀.transposes_S16x512x3_S16x3x512_0_2_1 := by
  show StableHlo.after hostOps0 (fun b => m (c, b)) (Proc.devRef .tc main_v0) = _
  after_results

/-- Before the kernel the mask is recast: [16, 512] → [16, 1, 512]. -/
theorem V_v1 (c : Dev nD) : (V m c main_v1 : S16x1x512.Idx → EReal)
    = shapeCast S16x1x512 (m ((c : Thread nD τ).loc main_arg2)) Facts₀.shapeCasts_S16x512_S16x1x512 := by
  show StableHlo.after hostOps0 (fun b => m (c, b)) (Proc.devRef .tc main_v1) = _
  after_results
  rfl

/-- Before the kernel the integer weights are recast: [16, 4096] → [16, 4096, 1]. -/
theorem V_v2 (c : Dev nD) : (V m c main_v2 : S16x4096x1.Idx → BitVec 32)
    = shapeCast S16x4096x1 (m ((c : Thread nD τ).loc main_arg3)) Facts₀.shapeCasts_S16x4096_S16x4096x1 := by
  show StableHlo.after hostOps0 (fun b => m (c, b)) (Proc.devRef .tc main_v2) = _
  after_results
  rfl

/-- Window 0's block index at point t is (t, 0, 0): one batch of points per grid point. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)

set_option maxHeartbeats 100000 in
/-- Element (0, n, k) of batch b's block of the point array sits at (b, n, k). -/
theorem emb0 (b : Fin 16) (n : Fin 4096) (k : Fin 3) :
    ((cfg0.win 0).blk (ptOf b.val)).view.emb (ix3 (0 : Fin 1) n k) = (ix3 b n k : S16x4096x3.Idx) := by
  obtain ⟨e0, e1, e2⟩ := idx0 (ptOf b.val)
  have hp : (ptOf b.val).val = b.val := ptOf_val_of_lt b.isLt
  funext a; apply Fin.ext
  match a with
  | ⟨0, _⟩ => show win0_0.index (ptOf b.val) (0 : Fin 3) * 1 + 1 * 0 = b.val; omega
  | ⟨1, _⟩ => show win0_0.index (ptOf b.val) (1 : Fin 3) * 4096 + 1 * n.val = n.val; omega
  | ⟨2, _⟩ => show win0_0.index (ptOf b.val) (2 : Fin 3) * 3 + 1 * k.val = k.val; omega

set_option maxHeartbeats 100000 in
/-- Batch b's block of the point array, read at (0, n, k), is the first argument at (b, n, k). -/
theorem blk0_apply (c : Dev nD) (b : Fin 16) (n : Fin 4096) (k : Fin 3) :
    iblk m c 0 (ptOf b.val) (ix3 (0 : Fin 1) n k) = m ((c : Thread nD τ).loc main_arg0) (ix3 b n k) := by
  show V m c main_arg0 (((cfg0.win 0).blk (ptOf b.val)).view.emb (ix3 (0 : Fin 1) n k)) = _
  refine (congrArg (V m c main_arg0) (emb0 b n k)).trans ?_
  exact congrFun (V_main_arg0 m c) _

/-- Window 1's block index at point t is (t, 0, 0). -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)

/-- Window 2's block index at point t is (t, 0, 0). -/
theorem idx2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)

/-- Window 3's block index at point t is (t, 0, 0). -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, win0_3.index t (0 : Fin 3) = t.val ∧ win0_3.index t (1 : Fin 3) = 0 ∧ win0_3.index t (2 : Fin 3) = 0)

set_option maxHeartbeats 100000 in
/-- Element (0, k, j) of batch b's block of the transposed centres sits at (b, k, j). -/
theorem emb1 (b : Fin 16) (k : Fin 3) (j : Fin 512) :
    ((cfg0.win 1).blk (ptOf b.val)).view.emb (ix3 (0 : Fin 1) k j) = (ix3 b k j : S16x3x512.Idx) := by
  obtain ⟨e0, e1, e2⟩ := idx1 (ptOf b.val)
  have hp : (ptOf b.val).val = b.val := ptOf_val_of_lt b.isLt
  funext a; apply Fin.ext
  match a with
  | ⟨0, _⟩ => show win0_1.index (ptOf b.val) (0 : Fin 3) * 1 + 1 * 0 = b.val; omega
  | ⟨1, _⟩ => show win0_1.index (ptOf b.val) (1 : Fin 3) * 3 + 1 * k.val = k.val; omega
  | ⟨2, _⟩ => show win0_1.index (ptOf b.val) (2 : Fin 3) * 512 + 1 * j.val = j.val; omega

set_option maxHeartbeats 100000 in
/-- Element (0, 0, j) of batch b's block of the recast mask sits at (b, 0, j). -/
theorem emb2 (b : Fin 16) (j : Fin 512) :
    ((cfg0.win 2).blk (ptOf b.val)).view.emb (ix3 (0 : Fin 1) (0 : Fin 1) j) = (ix3 b (0 : Fin 1) j : S16x1x512.Idx) := by
  obtain ⟨e0, e1, e2⟩ := idx2 (ptOf b.val)
  have hp : (ptOf b.val).val = b.val := ptOf_val_of_lt b.isLt
  funext a; apply Fin.ext
  match a with
  | ⟨0, _⟩ => show win0_2.index (ptOf b.val) (0 : Fin 3) * 1 + 1 * 0 = b.val; omega
  | ⟨1, _⟩ => show win0_2.index (ptOf b.val) (1 : Fin 3) * 1 + 1 * 0 = 0; omega
  | ⟨2, _⟩ => show win0_2.index (ptOf b.val) (2 : Fin 3) * 512 + 1 * j.val = j.val; omega

set_option maxHeartbeats 100000 in
/-- Element (0, n, 0) of batch b's block of the recast weights sits at (b, n, 0). -/
theorem emb3 (b : Fin 16) (n : Fin 4096) :
    ((cfg0.win 3).blk (ptOf b.val)).view.emb (ix3 (0 : Fin 1) n (0 : Fin 1)) = (ix3 b n (0 : Fin 1) : S16x4096x1.Idx) := by
  obtain ⟨e0, e1, e2⟩ := idx3 (ptOf b.val)
  have hp : (ptOf b.val).val = b.val := ptOf_val_of_lt b.isLt
  funext a; apply Fin.ext
  match a with
  | ⟨0, _⟩ => show win0_3.index (ptOf b.val) (0 : Fin 3) * 1 + 1 * 0 = b.val; omega
  | ⟨1, _⟩ => show win0_3.index (ptOf b.val) (1 : Fin 3) * 4096 + 1 * n.val = n.val; omega
  | ⟨2, _⟩ => show win0_3.index (ptOf b.val) (2 : Fin 3) * 1 + 1 * 0 = 0; omega

set_option maxHeartbeats 100000 in
/-- Batch b's block of the transposed centres, read at (0, k, j), is the second argument at (b, j, k). -/
theorem blk1_apply (c : Dev nD) (b : Fin 16) (k : Fin 3) (j : Fin 512) :
    iblk m c 1 (ptOf b.val) (ix3 (0 : Fin 1) k j) = m ((c : Thread nD τ).loc main_arg1) (ix3 b j k) := by
  show (V m c main_v0 : S16x3x512.Idx → EReal) (((cfg0.win 1).blk (ptOf b.val)).view.emb (ix3 (0 : Fin 1) k j)) = _
  refine (congrArg (V m c main_v0 : S16x3x512.Idx → EReal) (emb1 b k j)).trans ?_
  refine (congrFun (V_v0 m c) _).trans ?_
  exact transpose_ix3_021_apply _ _ b k j

set_option maxHeartbeats 100000 in
/-- Batch b's block of the recast mask, read at (0, 0, j), is the third argument at (b, j). -/
theorem blk2_apply (c : Dev nD) (b : Fin 16) (j : Fin 512) :
    iblk m c 2 (ptOf b.val) (ix3 (0 : Fin 1) (0 : Fin 1) j) = m ((c : Thread nD τ).loc main_arg2) (ix2 b j) := by
  show (V m c main_v1 : S16x1x512.Idx → EReal) (((cfg0.win 2).blk (ptOf b.val)).view.emb (ix3 (0 : Fin 1) (0 : Fin 1) j)) = _
  refine (congrArg (V m c main_v1 : S16x1x512.Idx → EReal) (emb2 b j)).trans ?_
  refine (congrFun (V_v1 m c) _).trans ?_
  refine shapeCast_apply _ _ _ (ix2 b j) ?_
  rw [Shape.rowMajor_val_two, Shape.rowMajor_val_three]
  show b.val * 512 + j.val = (b.val * 1 + 0) * 512 + j.val
  omega

set_option maxHeartbeats 100000 in
/-- Batch b's block of the recast weights, read at (0, n, 0), is the fourth argument at (b, n). -/
theorem blk3_apply (c : Dev nD) (b : Fin 16) (n : Fin 4096) :
    iblk m c 3 (ptOf b.val) (ix3 (0 : Fin 1) n (0 : Fin 1)) = m ((c : Thread nD τ).loc main_arg3) (ix2 b n) := by
  show (V m c main_v2 : S16x4096x1.Idx → BitVec 32) (((cfg0.win 3).blk (ptOf b.val)).view.emb (ix3 (0 : Fin 1) n (0 : Fin 1))) = _
  refine (congrArg (V m c main_v2 : S16x4096x1.Idx → BitVec 32) (emb3 b n)).trans ?_
  refine (congrFun (V_v2 m c) _).trans ?_
  refine shapeCast_apply _ _ _ (ix2 b n) ?_
  rw [Shape.rowMajor_val_two, Shape.rowMajor_val_three]
  show b.val * 4096 + n.val = (b.val * 4096 + n.val) * 1 + 0
  omega

end Cert.Chamfer.K

end
-- ==== Proof.TailValue.lean ====
/-
  The host tail of the kernel's program, read at its one result element.

  After the kernel, the program cuts lane l (l = 0, 1, 2, 3) out of every batch's row of the [16, 1, 128] output
  array — the slice at offsets (0, 0, l) of extents [16, 1, 1], recast to [16] — sums it over the sixteen batches
  from a zero initial value, and adds the two quotients lane 0 / (lane 1 + ε) and lane 2 / (lane 3 + ε).
  Stage 1 reads the slice and the cast at an index (both indices have row-major position b); stage 2 reads the
  total sum as a sum over the batch coordinate; the last theorem assembles the four sums into the specification's
  combination.
-/
import proofs.«128054_j9740985827850_2_alg».proof.Proof.Tail
import proofs.«128054_j9740985827850_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Chamfer

open Idealize.ShloMosaic Idealize.ShloMosaic.ValueIdx Cert.KernelIdeal Cert.KernelIdeal.Facts₀

variable [Cert.KernelIdeal.Facts]

namespace TailV

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Stage 1: lane l of batch b's row. The slice at offsets (0, 0, l) of extents [16, 1, 1] reads (b, 0, 0) at
    (b, 0, l), and the cast [16, 1, 1] → [16] reads b at (b, 0, 0): both have row-major position b. -/
theorem laneOf_apply (A : FVec Ideal S16x1x128 .f32) (l : Nat) (hl : l < 128)
    (h : S16x1x128.Slices ![0, 0, l] S16x1x1) (b : Fin 16) :
    laneOf A ![0, 0, l] h (ix1 b) = A (ix3 b (0 : Fin 1) (⟨l, hl⟩ : Fin 128)) := by
  unfold laneOf
  refine (shapeCast_apply _ shapeCasts_S16x1x1_S16 (ix1 b) (ix3 b (0 : Fin 1) (0 : Fin 1)) ?_).trans ?_
  · rw [Shape.rowMajor_val_three, Shape.rowMajor_val_one]
    show (b.val * 1 + 0) * 1 + 0 = b.val
    omega
  · exact extractStridedSlice_apply _ A h _ _ fun a => match a with
      | ⟨0, _⟩ => by show b.val = 0 + b.val; omega
      | ⟨1, _⟩ => by show 0 = 0 + 0; rfl
      | ⟨2, _⟩ => by show l = l + 0; rfl

/-- Stage 2: the sum of lane l over the sixteen batches, from the zero initial value. -/
theorem laneSum_apply (A : FVec Ideal S16x1x128 .f32) (l : Nat) (hl : l < 128)
    (h : S16x1x128.Slices ![0, 0, l] S16x1x1) (i : S_.Idx) :
    laneSum A ![0, 0, l] h i = ∑ b : Fin 16, A (ix3 b (0 : Fin 1) (⟨l, hl⟩ : Fin 128)) := by
  unfold laneSum
  generalize hy : laneOf A ![0, 0, l] h = y
  simp only [Host.reduceAdd, Ideal.hostReduceAdd_def]
  refine (Ideal.hostReduceAdd_total reducesTo_S16_S_d0 (fun b => b.elim0) y _ i).trans ?_
  rw [constant_apply, Ideal.ofBits_zero_f32, zero_add, sum_idx1]
  exact Finset.sum_congr rfl fun b _ => by rw [← hy, laneOf_apply A l hl h b]

end TailV

open TailV

/-- THE TAIL, READ: the program's result is the specification's combination of the four lanes' batch sums. -/
theorem tailOf_value (A : FVec Ideal Cert.KernelIdeal.S16x1x128 .f32) :
    tailOf A = fun _ => combine
      (∑ b : Fin 16, A (ix3 b (0 : Fin 1) (⟨0, by decide⟩ : Fin 128)))
      (∑ b : Fin 16, A (ix3 b (0 : Fin 1) (⟨1, by decide⟩ : Fin 128)))
      (∑ b : Fin 16, A (ix3 b (0 : Fin 1) (⟨2, by decide⟩ : Fin 128)))
      (∑ b : Fin 16, A (ix3 b (0 : Fin 1) (⟨3, by decide⟩ : Fin 128))) := by
  funext i
  unfold tailOf combine
  show Ideal.div (laneSum A ![0, 0, 0] slices_S16x1x128_S16x1x1_0_0_0 i)
        (laneSum A ![0, 0, 1] slices_S16x1x128_S16x1x1_0_0_1 i + eps)
      + Ideal.div (laneSum A ![0, 0, 2] slices_S16x1x128_S16x1x1_0_0_2 i)
        (laneSum A ![0, 0, 3] slices_S16x1x128_S16x1x1_0_0_3 i + eps) = _
  rw [laneSum_apply A 0 (by decide), laneSum_apply A 1 (by decide), laneSum_apply A 2 (by decide),
    laneSum_apply A 3 (by decide)]

end Cert.Chamfer

end
-- ==== Proof.KLoss.lean ====
/-
  The kernel's program computes the loss. Row `b` of the kernel's output array holds, in lanes 0..3, the four
  one-batch sums of batch `b`'s blocks; the blocks are batch `b`'s slices of the argument arrays (the centres
  transposed); for real points and centres those sums are the specification's; and the operations after the
  kernel sum each lane over the batches and form the two quotients.
-/
import proofs.«128054_j9740985827850_2_alg».proof.Proof.KRun
import proofs.«128054_j9740985827850_2_alg».proof.Proof.OutArray
import proofs.«128054_j9740985827850_2_alg».proof.Proof.Stored
import proofs.«128054_j9740985827850_2_alg».proof.Proof.Blocks
import proofs.«128054_j9740985827850_2_alg».proof.Proof.TailValue
import proofs.«128054_j9740985827850_2_alg».proof.Proof.Block

noncomputable section

namespace Cert.Chamfer.K

open Cert.KernelIdeal Cert.KernelIdeal.Gen Idealize.ShloMosaic Idealize.ShloMosaic.TcCoe Idealize.SL.Sem
open Idealize.ShloMosaic.ValueIdx Cert.Chamfer

variable (m : (ℓ : Loc nD τ sig) → Buf (Elt Ideal) ℓ) (ρ : Dev nD → PrngReg)

section Rows

variable (c : Dev nD)
  (hP : ∀ i, ∃ r : ℝ, m ((c : Thread nD τ).loc main_arg0) i = (r : EReal))
  (hC : ∀ i, ∃ r : ℝ, m ((c : Thread nD τ).loc main_arg1) i = (r : EReal))
  (b : Fin 16)

/-- Row `b` of the output array is the stored row of batch `b`'s blocks. -/
theorem row_eq (l : Fin 128) : outArr m c (ix3 b (0 : Fin 1) l)
    = Body.stored (iblk m c 0 (ptOf b.val)) (iblk m c 1 (ptOf b.val)) (iblk m c 2 (ptOf b.val)) (iblk m c 3 (ptOf b.val))
        (ix3 (0 : Fin 1) (0 : Fin 1) l) := by
  rw [outArr_apply]
  unfold blkOut
  rw [out_eq_stored]

include hP hC in
theorem row_lane0 : outArr m c (ix3 b (0 : Fin 1) (⟨0, by decide⟩ : Fin 128))
    = num1 (m ((c : Thread nD τ).loc main_arg0)) (m ((c : Thread nD τ).loc main_arg1)) (m ((c : Thread nD τ).loc main_arg3)) b :=
  (row_eq m c b _).trans ((Body.stored_lane0 _ _ _ _).trans
    (bnum1_eq _ _ _ hP hC b _ _ _ (blk0_apply m c b) (blk1_apply m c b) (blk3_apply m c b)))

theorem row_lane1 : outArr m c (ix3 b (0 : Fin 1) (⟨1, by decide⟩ : Fin 128))
    = den1 (m ((c : Thread nD τ).loc main_arg3)) b :=
  (row_eq m c b _).trans ((Body.stored_lane1 _ _ _ _).trans (bden1_eq _ b _ (blk3_apply m c b)))

include hP hC in
theorem row_lane2 : outArr m c (ix3 b (0 : Fin 1) (⟨2, by decide⟩ : Fin 128))
    = num2 (m ((c : Thread nD τ).loc main_arg0)) (m ((c : Thread nD τ).loc main_arg1)) (m ((c : Thread nD τ).loc main_arg2)) b :=
  (row_eq m c b _).trans ((Body.stored_lane2 _ _ _ _).trans
    (bnum2_eq _ _ _ hP hC b _ _ _ (blk0_apply m c b) (blk1_apply m c b) (blk2_apply m c b)))

theorem row_lane3 : outArr m c (ix3 b (0 : Fin 1) (⟨3, by decide⟩ : Fin 128))
    = den2 (m ((c : Thread nD τ).loc main_arg2)) b :=
  (row_eq m c b _).trans ((Body.stored_lane3 _ _ _ _).trans (bden2_eq _ b _ (blk2_apply m c b)))

end Rows

/-- The program's result, for real points and centres: the loss of the four argument arrays. -/
theorem result_eq (c : Dev nD)
    (hP : ∀ i, ∃ r : ℝ, m ((c : Thread nD τ).loc main_arg0) i = (r : EReal))
    (hC : ∀ i, ∃ r : ℝ, m ((c : Thread nD τ).loc main_arg1) i = (r : EReal)) :
    Pipeline.afterTail₀ cfgs (dats m) 0 (V0 m) [hostOps1] c main_v20
      = fun _ => loss (m ((c : Thread nD τ).loc main_arg0)) (m ((c : Thread nD τ).loc main_arg1))
          (m ((c : Thread nD τ).loc main_arg2)) (m ((c : Thread nD τ).loc main_arg3)) := by
  rw [tail_eq, final4, tailOf_value]
  funext _
  unfold loss
  simp only [row_lane0 m c hP hC, row_lane1 m c, row_lane2 m c hP hC, row_lane3 m c]

/-- Every weakly fair execution ends with the result at the loss and the arguments unchanged. -/
theorem run (hreal : ∀ c : Dev nD,
      (∀ i, ∃ r : ℝ, m ((c : Thread nD τ).loc main_arg0) i = (r : EReal))
      ∧ (∀ i, ∃ r : ℝ, m ((c : Thread nD τ).loc main_arg1) i = (r : EReal))) :
    θ_run defs (onTc (τ := τ) (main (F := Ideal))) ⟨m, fun _ => 0, ρ⟩ fun r => ∀ c : Dev nD,
      r.2.mem ((c : Thread nD τ).loc main_v20)
          = (fun _ => loss (m ((c : Thread nD τ).loc main_arg0)) (m ((c : Thread nD τ).loc main_arg1))
              (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post_v20 m r h c).trans (result_eq m c (hreal c).1 (hreal c).2),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Chamfer.K

end
-- ==== Proof.lean ====
/-
  The certificate's claim. The kernel computes, per batch, the squared distances between 4096 points and 512 centres
  by the expansion |p|² + |c|² - 2 p·c (the cross term a matrix product), clamps them at zero, takes the minimum along
  each axis and sums the minima against integer weights and a mask, packing the four partial sums of each batch in
  four lanes of its output row; the program then sums each lane over the 16 batches and adds the two quotients. The
  reference forms the squared distances as sums of squared differences and reduces over all batches at once. On the
  extended reals the two agree whenever the points and centres are real numbers, which the precondition states: the
  expansion of the square is then exact and non-negative (Law.lean), and sums may be regrouped freely.

  The three frame claims are the generated frame runs (the reference's is its generated run with the result dropped);
  the idealization rewrote nothing, so `preserves` is trivial; `algebraic` sets the kernel's run (KLoss.lean: the
  result buffer ends at `loss` of the arguments) beside the reference's run (RefLoss.lean: its result is `loss` of its
  arguments), the arguments agreeing.
-/
import proofs.«128054_j9740985827850_2_alg».proof.Defs
import proofs.«128054_j9740985827850_2_alg».proof.Proof.Gen.Kernel
import proofs.«128054_j9740985827850_2_alg».proof.Proof.Gen.Kernel.Skeleton
import proofs.«128054_j9740985827850_2_alg».proof.Proof.Gen.Kernel.Launch
import proofs.«128054_j9740985827850_2_alg».proof.Proof.Gen.Kernel.Points
import proofs.«128054_j9740985827850_2_alg».proof.Proof.Gen.Kernel.Frame
import proofs.«128054_j9740985827850_2_alg».proof.Proof.Gen.KernelIdeal
import proofs.«128054_j9740985827850_2_alg».proof.Proof.Gen.KernelIdeal.Skeleton
import proofs.«128054_j9740985827850_2_alg».proof.Proof.Gen.KernelIdeal.Launch
import proofs.«128054_j9740985827850_2_alg».proof.Proof.Gen.KernelIdeal.Points
import proofs.«128054_j9740985827850_2_alg».proof.Proof.Gen.KernelIdeal.Frame
import proofs.«128054_j9740985827850_2_alg».proof.Proof.Gen.ReferenceIdeal
import proofs.«128054_j9740985827850_2_alg».proof.Proof.Gen.ReferenceIdeal.Run
import proofs.«128054_j9740985827850_2_alg».proof.Proof.Gen.ReferenceIdeal.Read
import proofs.«128054_j9740985827850_2_alg».proof.Proof.Gen.Pre_finite_inputs
import proofs.«128054_j9740985827850_2_alg».proof.Proof.Finite
import proofs.«128054_j9740985827850_2_alg».proof.Proof.RefLoss
import proofs.«128054_j9740985827850_2_alg».proof.Proof.KLoss
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the loss of the (agreeing) arguments. -/
theorem algebraic : Cert.algebraic_KernelIdeal_ReferenceIdeal := by
  intro m ρ m' ρ' hpre hagree
  refine ⟨_, Cert.Chamfer.K.run m ρ (fun c =>
    ⟨(Cert.Chamfer.Finite.real_of_pre_kernelIdeal m hpre c).1, (Cert.Chamfer.Finite.real_of_pre_kernelIdeal m hpre c).2.1⟩), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Chamfer.Ref.ref_loss,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
